-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x4096 : Shape := ⟨2, ![1024, 4096]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S128x1024 .f32) (main_arg1 : FVec F S1024x4096 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  main_v8
-- ==== Kernel.lean ====
abbrev S128x1024 : Shape := ⟨2, ![128, 1024]⟩
abbrev S1024x4096 : Shape := ⟨2, ![1024, 4096]⟩
abbrev S1024x128x32 : Shape := ⟨3, ![1024, 128, 32]⟩
abbrev S1024x32x128 : Shape := ⟨3, ![1024, 32, 128]⟩
abbrev S128x4096 : Shape := ⟨2, ![128, 4096]⟩
abbrev S1024x1024 : Shape := ⟨2, ![1024, 1024]⟩
abbrev S128x32x128 : Shape := ⟨3, ![128, 32, 128]⟩
abbrev S128x128 : Shape := ⟨2, ![128, 128]⟩
abbrev S16x32x128 : Shape := ⟨3, ![16, 32, 128]⟩
abbrev S32x32x128 : Shape := ⟨3, ![32, 32, 128]⟩
abbrev S16x128 : Shape := ⟨2, ![16, 128]⟩
abbrev S16x1x128 : Shape := ⟨3, ![16, 1, 128]⟩
abbrev S32x1x128 : Shape := ⟨3, ![32, 1, 128]⟩
abbrev S32x128 : Shape := ⟨2, ![32, 128]⟩
abbrev S1x32x128 : Shape := ⟨3, ![1, 32, 128]⟩
abbrev S128x1152 : Shape := ⟨2, ![128, 1152]⟩

abbrev nBuf : Space → Nat
  | .hbm => 9
  | .vmem => 12
  | .smem => 0
  | _ => 0

abbrev bufTy : (tb : Table) → Fin (tcTables nBuf tb) → BufTy
  | .hbm, ⟨0, _⟩ => ⟨S128x1024, .f32⟩
  | .hbm, ⟨1, _⟩ => ⟨S1024x4096, .f32⟩
  | .hbm, ⟨2, _⟩ => ⟨S1024x128x32, .f32⟩
  | .hbm, ⟨3, _⟩ => ⟨S1024x32x128, .f32⟩
  | .hbm, ⟨4, _⟩ => ⟨S1024x4096, .f32⟩
  | .hbm, ⟨5, _⟩ => ⟨S128x4096, .f32⟩
  | .hbm, ⟨6, _⟩ => ⟨S128x32x128, .f32⟩
  | .hbm, ⟨7, _⟩ => ⟨S128x128, .f32⟩
  | .hbm, ⟨8, _⟩ => ⟨S128x1152, .f32⟩
  | .local _ .vmem, ⟨0, _⟩ => ⟨S128x1024, .f32⟩
  | .local _ .vmem, ⟨1, _⟩ => ⟨S1024x1024, .f32⟩
  | .local _ .vmem, ⟨2, _⟩ => ⟨S1024x1024, .f32⟩
  | .local _ .vmem, ⟨3, _⟩ => ⟨S128x1024, .f32⟩
  | .local _ .vmem, ⟨4, _⟩ => ⟨S128x1024, .f32⟩
  | .local _ .vmem, ⟨5, _⟩ => ⟨S16x32x128, .f32⟩
  | .local _ .vmem, ⟨6, _⟩ => ⟨S16x32x128, .f32⟩
  | .local _ .vmem, ⟨7, _⟩ => ⟨S32x32x128, .f32⟩
  | .local _ .vmem, ⟨8, _⟩ => ⟨S32x32x128, .f32⟩
  | .local _ .vmem, ⟨9, _⟩ => ⟨S16x128, .f32⟩
  | .local _ .vmem, ⟨10, _⟩ => ⟨S16x128, .f32⟩
  | .local _ .vmem, ⟨11, _⟩ => ⟨S16x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v365 : BitVec 1 := Scalar.cmpi .eq arg1 c3_i32
  let v366 : BitVec 32 := Scalar.extui v365
  let c0_i32_167 : BitVec 32 := 0#32
  let v367 : BitVec 1 := Scalar.cmpi .ne v366 c0_i32_167
  v367

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x32x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S16x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S1024x4096_S1024x128x32 : S1024x4096.ShapeCasts S1024x128x32
  transposes_S1024x128x32_S1024x32x128_0_2_1 : S1024x128x32.Transposes [0, 2, 1] S1024x32x128
  shapeCasts_S1024x32x128_S1024x4096 : S1024x32x128.ShapeCasts S1024x4096
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S128x4096_S128x32x128 : S128x4096.ShapeCasts S128x32x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x32x128_S16x1x128_0_0_0 : ∀ a, (![0, 0, 0] : Fin 3 → Nat) a + S16x1x128.size a ≤ S16x32x128.size a
  h_S16x1x128 : 0 < S16x1x128.numel
  shapeCasts_S16x1x128_S16x128 : S16x1x128.ShapeCasts S16x128
  inb_S32x32x128_S32x1x128_0_0_0 : ∀ a, (![0, 0, 0] : Fin 3 → Nat) a + S32x1x128.size a ≤ S32x32x128.size a
  h_S32x1x128 : 0 < S32x1x128.numel
  shapeCasts_S32x1x128_S32x128 : S32x1x128.ShapeCasts S32x128
  shapeCasts_S16x128_S16x1x128 : S16x128.ShapeCasts S16x1x128
  shapeCasts_S32x128_S1x32x128 : S32x128.ShapeCasts S1x32x128
  broadcasts_S16x1x128_S16x32x128 : S16x1x128.Broadcasts S16x32x128
  broadcasts_S1x32x128_S16x32x128 : S1x32x128.Broadcasts S16x32x128
  inb_S16x32x128_S16x1x128_0_1_0 : ∀ a, (![0, 1, 0] : Fin 3 → Nat) a + S16x1x128.size a ≤ S16x32x128.size a
  inb_S32x32x128_S32x1x128_0_1_0 : ∀ a, (![0, 1, 0] : Fin 3 → Nat) a + S32x1x128.size a ≤ S32x32x128.size a
  inb_S16x32x128_S16x1x128_0_2_0 : ∀ a, (![0, 2, 0] : Fin 3 → Nat) a + S16x1x128.size a ≤ S16x32x128.size a
  inb_S32x32x128_S32x1x128_0_2_0 : ∀ a, (![0, 2, 0] : Fin 3 → Nat) a + S32x1x128.size a ≤ S32x32x128.size a
  inb_S16x32x128_S16x1x128_0_3_0 : ∀ a, (![0, 3, 0] : Fin 3 → Nat) a + S16x1x128.size a ≤ S16x32x128.size a
  inb_S32x32x128_S32x1x128_0_3_0 : ∀ a, (![0, 3, 0] : Fin 3 → Nat) a + S32x1x128.size a ≤ S32x32x128.size a
  inb_S16x32x128_S16x1x128_0_4_0 : ∀ a, (![0, 4, 0] : Fin 3 → Nat) a + S16x1x128.size a ≤ S16x32x128.size a
  inb_S32x32x128_S32x1x128_0_4_0 : ∀ a, (![0, 4, 0] : Fin 3 → Nat) a + S32x1x128.size a ≤ S32x32x128.size a
  inb_S16x32x128_S16x1x128_0_5_0 : ∀ a, (![0, 5, 0] : Fin 3 → Nat) a + S16x1x128.size a ≤ S16x32x128.size a
  inb_S32x32x128_S32x1x128_0_5_0 : ∀ a, (![0, 5, 0] : Fin 3 → Nat) a + S32x1x128.size a ≤ S32x32x128.size a
  inb_S16x32x128_S16x1x128_0_6_0 : ∀ a, (![0, 6, 0] : Fin 3 → Nat) a + S16x1x128.size a ≤ S16x32x128.size a
  inb_S32x32x128_S32x1x128_0_6_0 : ∀ a, (![0, 6, 0] : Fin 3 → Nat) a + S32x1x128.size a ≤ S32x32x128.size a
  inb_S16x32x128_S16x1x128_0_7_0 : ∀ a, (![0, 7, 0] : Fin 3 → Nat) a + S16x1x128.size a ≤ S16x32x128.size a
  inb_S32x32x128_S32x1x128_0_7_0 : ∀ a, (![0, 7, 0] : Fin 3 → Nat) a + S32x1x128.size a ≤ S32x32x128.size a
  inb_S16x32x128_S16x1x128_0_8_0 : ∀ a, (![0, 8, 0] : Fin 3 → Nat) a + S16x1x128.size a ≤ S16x32x128.size a
  inb_S32x32x128_S32x1x128_0_8_0 : ∀ a, (![0, 8, 0] : Fin 3 → Nat) a + S32x1x128.size a ≤ S32x32x128.size a
  inb_S16x32x128_S16x1x128_0_9_0 : ∀ a, (![0, 9, 0] : Fin 3 → Nat) a + S16x1x128.size a ≤ S16x32x128.size a
  inb_S32x32x128_S32x1x128_0_9_0 : ∀ a, (![0, 9, 0] : Fin 3 → Nat) a + S32x1x128.size a ≤ S32x32x128.size a
  inb_S16x32x128_S16x1x128_0_10_0 : ∀ a, (![0, 10, 0] : Fin 3 → Nat) a + S16x1x128.size a ≤ S16x32x128.size a
  inb_S32x32x128_S32x1x128_0_10_0 : ∀ a, (![0, 10, 0] : Fin 3 → Nat) a + S32x1x128.size a ≤ S32x32x128.size a
  inb_S16x32x128_S16x1x128_0_11_0 : ∀ a, (![0, 11, 0] : Fin 3 → Nat) a + S16x1x128.size a ≤ S16x32x128.size a
  inb_S32x32x128_S32x1x128_0_11_0 : ∀ a, (![0, 11, 0] : Fin 3 → Nat) a + S32x1x128.size a ≤ S32x32x128.size a
  inb_S16x32x128_S16x1x128_0_12_0 : ∀ a, (![0, 12, 0] : Fin 3 → Nat) a + S16x1x128.size a ≤ S16x32x128.size a
  inb_S32x32x128_S32x1x128_0_12_0 : ∀ a, (![0, 12, 0] : Fin 3 → Nat) a + S32x1x128.size a ≤ S32x32x128.size a
  inb_S16x32x128_S16x1x128_0_13_0 : ∀ a, (![0, 13, 0] : Fin 3 → Nat) a + S16x1x128.size a ≤ S16x32x128.size a
  inb_S32x32x128_S32x1x128_0_13_0 : ∀ a, (![0, 13, 0] : Fin 3 → Nat) a + S32x1x128.size a ≤ S32x32x128.size a
  inb_S16x32x128_S16x1x128_0_14_0 : ∀ a, (![0, 14, 0] : Fin 3 → Nat) a + S16x1x128.size a ≤ S16x32x128.size a
  inb_S32x32x128_S32x1x128_0_14_0 : ∀ a, (![0, 14, 0] : Fin 3 → Nat) a + S32x1x128.size a ≤ S32x32x128.size a
  inb_S16x32x128_S16x1x128_0_15_0 : ∀ a, (![0, 15, 0] : Fin 3 → Nat) a + S16x1x128.size a ≤ S16x32x128.size a
  inb_S32x32x128_S32x1x128_0_15_0 : ∀ a, (![0, 15, 0] : Fin 3 → Nat) a + S32x1x128.size a ≤ S32x32x128.size a
  inb_S16x32x128_S16x1x128_0_16_0 : ∀ a, (![0, 16, 0] : Fin 3 → Nat) a + S16x1x128.size a ≤ S16x32x128.size a
  inb_S32x32x128_S32x1x128_0_16_0 : ∀ a, (![0, 16, 0] : Fin 3 → Nat) a + S32x1x128.size a ≤ S32x32x128.size a
  inb_S16x32x128_S16x1x128_0_17_0 : ∀ a, (![0, 17, 0] : Fin 3 → Nat) a + S16x1x128.size a ≤ S16x32x128.size a
  inb_S32x32x128_S32x1x128_0_17_0 : ∀ a, (![0, 17, 0] : Fin 3 → Nat) a + S32x1x128.size a ≤ S32x32x128.size a
  inb_S16x32x128_S16x1x128_0_18_0 : ∀ a, (![0, 18, 0] : Fin 3 → Nat) a + S16x1x128.size a ≤ S16x32x128.size a
  inb_S32x32x128_S32x1x128_0_18_0 : ∀ a, (![0, 18, 0] : Fin 3 → Nat) a + S32x1x128.size a ≤ S32x32x128.size a
  inb_S16x32x128_S16x1x128_0_19_0 : ∀ a, (![0, 19, 0] : Fin 3 → Nat) a + S16x1x128.size a ≤ S16x32x128.size a
  inb_S32x32x128_S32x1x128_0_19_0 : ∀ a, (![0, 19, 0] : Fin 3 → Nat) a + S32x1x128.size a ≤ S32x32x128.size a
  inb_S16x32x128_S16x1x128_0_20_0 : ∀ a, (![0, 20, 0] : Fin 3 → Nat) a + S16x1x128.size a ≤ S16x32x128.size a
  inb_S32x32x128_S32x1x128_0_20_0 : ∀ a, (![0, 20, 0] : Fin 3 → Nat) a + S32x1x128.size a ≤ S32x32x128.size a
  inb_S16x32x128_S16x1x128_0_21_0 : ∀ a, (![0, 21, 0] : Fin 3 → Nat) a + S16x1x128.size a ≤ S16x32x128.size a
  inb_S32x32x128_S32x1x128_0_21_0 : ∀ a, (![0, 21, 0] : Fin 3 → Nat) a + S32x1x128.size a ≤ S32x32x128.size a
  inb_S16x32x128_S16x1x128_0_22_0 : ∀ a, (![0, 22, 0] : Fin 3 → Nat) a + S16x1x128.size a ≤ S16x32x128.size a
  inb_S32x32x128_S32x1x128_0_22_0 : ∀ a, (![0, 22, 0] : Fin 3 → Nat) a + S32x1x128.size a ≤ S32x32x128.size a
  inb_S16x32x128_S16x1x128_0_23_0 : ∀ a, (![0, 23, 0] : Fin 3 → Nat) a + S16x1x128.size a ≤ S16x32x128.size a
  inb_S32x32x128_S32x1x128_0_23_0 : ∀ a, (![0, 23, 0] : Fin 3 → Nat) a + S32x1x128.size a ≤ S32x32x128.size a
  inb_S16x32x128_S16x1x128_0_24_0 : ∀ a, (![0, 24, 0] : Fin 3 → Nat) a + S16x1x128.size a ≤ S16x32x128.size a
  inb_S32x32x128_S32x1x128_0_24_0 : ∀ a, (![0, 24, 0] : Fin 3 → Nat) a + S32x1x128.size a ≤ S32x32x128.size a
  inb_S16x32x128_S16x1x128_0_25_0 : ∀ a, (![0, 25, 0] : Fin 3 → Nat) a + S16x1x128.size a ≤ S16x32x128.size a
  inb_S32x32x128_S32x1x128_0_25_0 : ∀ a, (![0, 25, 0] : Fin 3 → Nat) a + S32x1x128.size a ≤ S32x32x128.size a
  inb_S16x32x128_S16x1x128_0_26_0 : ∀ a, (![0, 26, 0] : Fin 3 → Nat) a + S16x1x128.size a ≤ S16x32x128.size a
  inb_S32x32x128_S32x1x128_0_26_0 : ∀ a, (![0, 26, 0] : Fin 3 → Nat) a + S32x1x128.size a ≤ S32x32x128.size a
  inb_S16x32x128_S16x1x128_0_27_0 : ∀ a, (![0, 27, 0] : Fin 3 → Nat) a + S16x1x128.size a ≤ S16x32x128.size a
  inb_S32x32x128_S32x1x128_0_27_0 : ∀ a, (![0, 27, 0] : Fin 3 → Nat) a + S32x1x128.size a ≤ S32x32x128.size a
  inb_S16x32x128_S16x1x128_0_28_0 : ∀ a, (![0, 28, 0] : Fin 3 → Nat) a + S16x1x128.size a ≤ S16x32x128.size a
  inb_S32x32x128_S32x1x128_0_28_0 : ∀ a, (![0, 28, 0] : Fin 3 → Nat) a + S32x1x128.size a ≤ S32x32x128.size a
  inb_S16x32x128_S16x1x128_0_29_0 : ∀ a, (![0, 29, 0] : Fin 3 → Nat) a + S16x1x128.size a ≤ S16x32x128.size a
  inb_S32x32x128_S32x1x128_0_29_0 : ∀ a, (![0, 29, 0] : Fin 3 → Nat) a + S32x1x128.size a ≤ S32x32x128.size a
  inb_S16x32x128_S16x1x128_0_30_0 : ∀ a, (![0, 30, 0] : Fin 3 → Nat) a + S16x1x128.size a ≤ S16x32x128.size a
  inb_S32x32x128_S32x1x128_0_30_0 : ∀ a, (![0, 30, 0] : Fin 3 → Nat) a + S32x1x128.size a ≤ S32x32x128.size a
  inb_S16x32x128_S16x1x128_0_31_0 : ∀ a, (![0, 31, 0] : Fin 3 → Nat) a + S16x1x128.size a ≤ S16x32x128.size a
  inb_S32x32x128_S32x1x128_0_31_0 : ∀ a, (![0, 31, 0] : Fin 3 → Nat) a + S32x1x128.size a ≤ S32x32x128.size a
  reduces_S16x32x128_S16x128 : S16x32x128.Reduces [1] S16x128
  concatenates_S128x1024_S128x128_S128x1152_d1 : Shape.Concatenates [S128x1024, S128x128] S128x1152 1
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x4096.size a
  hwx0_1 : ∀ i : grid0.Coords, EltTy.bits .f32 = 32 ∨ (Rect.block (s := S1024x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S128x4096.size a
  hwx0_2 : ∀ i : grid0.Coords, EltTy.bits .f32 = 32 ∨ (Rect.block (s := S128x4096) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x32x128.size a ≤ S128x32x128.size a
  hwx1_0 : ∀ i : grid1.Coords, EltTy.bits .f32 = 32 ∨ (Rect.block (s := S128x32x128) S16x32x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x32x128.size a ≤ S128x32x128.size a
  hwx1_1 : ∀ i : grid1.Coords, EltTy.bits .f32 = 32 ∨ (Rect.block (s := S128x32x128) S32x32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x128.size a ≤ S128x128.size a
  hwx1_2 : ∀ i : grid1.Coords, EltTy.bits .f32 = 32 ∨ (Rect.block (s := S128x128) S16x128.size (cc1_transform_2 i) (hinb1_2 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S16x32x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S32x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S16x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S128x1024 : Shape := ⟨2, ![128, 1024]⟩
abbrev S1024x4096 : Shape := ⟨2, ![1024, 4096]⟩
abbrev S128x4096 : Shape := ⟨2, ![128, 4096]⟩
abbrev S128x128x32 : Shape := ⟨3, ![128, 128, 32]⟩
abbrev S128x1x128x32 : Shape := ⟨4, ![128, 1, 128, 32]⟩
abbrev S1x128x128x32 : Shape := ⟨4, ![1, 128, 128, 32]⟩
abbrev S128x128x128x32 : Shape := ⟨4, ![128, 128, 128, 32]⟩
abbrev S_ : Shape := ⟨0, ![]⟩
abbrev S128x128x128 : Shape := ⟨3, ![128, 128, 128]⟩
abbrev S128x128 : Shape := ⟨2, ![128, 128]⟩
abbrev S128x1152 : Shape := ⟨2, ![128, 1152]⟩

abbrev nBuf : Space → Nat
  | .hbm => 20
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x4096, .f32⟩
  | .hbm, ⟨2, _⟩ => ⟨S128x4096, .f32⟩
  | .hbm, ⟨3, _⟩ => ⟨S128x128x32, .f32⟩
  | .hbm, ⟨4, _⟩ => ⟨S128x1x128x32, .f32⟩
  | .hbm, ⟨5, _⟩ => ⟨S1x128x128x32, .f32⟩
  | .hbm, ⟨6, _⟩ => ⟨S128x128x128x32, .f32⟩
  | .hbm, ⟨7, _⟩ => ⟨S128x128x128x32, .f32⟩
  | .hbm, ⟨8, _⟩ => ⟨S128x128x128x32, .f32⟩
  | .hbm, ⟨9, _⟩ => ⟨S128x128x128x32, .f32⟩
  | .hbm, ⟨10, _⟩ => ⟨S_, .f32⟩
  | .hbm, ⟨11, _⟩ => ⟨S128x128x128, .f32⟩
  | .hbm, ⟨12, _⟩ => ⟨S128x128x128, .f32⟩
  | .hbm, ⟨13, _⟩ => ⟨S128x128x128, .f32⟩
  | .hbm, ⟨14, _⟩ => ⟨S_, .f32⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x1152, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  shapeCasts_S128x4096_S128x128x32 : S128x4096.ShapeCasts S128x128x32
  bcast_S128x128x32_S128x1x128x32_0_2_3 : S128x128x32.BroadcastsInDim S128x1x128x32 (![0, 2, 3] : Fin 3 → Fin S128x1x128x32.rank)
  bcast_S128x128x32_S1x128x128x32_1_2_3 : S128x128x32.BroadcastsInDim S1x128x128x32 (![1, 2, 3] : Fin 3 → Fin S1x128x128x32.rank)
  bcast_S128x1x128x32_S128x128x128x32_0_1_2_3 : S128x1x128x32.BroadcastsInDim S128x128x128x32 (![0, 1, 2, 3] : Fin 4 → Fin S128x128x128x32.rank)
  bcast_S1x128x128x32_S128x128x128x32_0_1_2_3 : S1x128x128x32.BroadcastsInDim S128x128x128x32 (![0, 1, 2, 3] : Fin 4 → Fin S128x128x128x32.rank)
  reducesTo_S128x128x128x32_S128x128x128_d3 : S128x128x128x32.ReducesTo [3] S128x128x128
  h_S_ : 0 < S_.numel
  reducesTo_S128x128x128_S128x128_d1 : S128x128x128.ReducesTo [1] S128x128
  bcast_S_S128x128 : S_.BroadcastsInDim S128x128 (![] : Fin 0 → Fin S128x128.rank)
  concatenates_S128x1024_S128x128_S128x1152_d1 : Shape.Concatenates [S128x1024, S128x128] S128x1152 1
  dot_S128x1024_S1024x4096_S128x4096_1_0_0_1_n_n_wf : DotDims.WF S128x1024 S1024x4096 S128x4096 [1] [0] [0] [1] [] []

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf

class Facts : Prop extends Facts₀ where

variable [Facts]
-- ==== Proof.BitsReg0.lean ====
import proofs.«106312_j48043504173685_2_alg».proof.Proof.Gen.Kernel.Launch
import proofs.«106312_j48043504173685_2_alg».proof.Proof.Gen.Kernel.Skeleton
import proofs.«106312_j48043504173685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The matrix-product region

The first region of the program multiplies a 128 x 1024 matrix by a 1024 x 4096 matrix, one block of
1024 columns per grid point (four points).  This module states, at any float model, what the region's
body leaves in each window's staging buffer at a point as a function of the blocks it is handed, and
proves that the body meets that description at every point.  Everything is relative to a parameter
`V`, the contents of the core's buffers when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds the (one) block of the left matrix at every point, although it is
    fetched at the first point only: where it is not fetched its block index has not moved, and the body leaves
    the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the point's block of 1024 columns of the right matrix. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x1024 := Rect.unit (s := S128x1024) ![0, 0] S128x1024.size inb_S128x1024_S128x1024_0_0
abbrev r0_1 : Rect S1024x1024 := Rect.unit (s := S1024x1024) ![0, 0] S1024x1024.size inb_S1024x1024_S1024x1024_0_0

/-! ## What the body leaves in the product's buffer -/

/-- The product window's staging buffer after the body, from the two factor blocks: one store of the whole
    block, the product of the two blocks. -/
def out0_2 (x0 : Vec F S128x1024 .f32) (x1 : Vec F S1024x1024 .f32) : Vec F S128x1024 .f32 :=
  View.canon [⟨r0_0, k0_pay1 (View.ld x0 r0_0) (View.ld x1 r0_1)⟩]

/-- The one store is of the whole block, so it covers it. -/
theorem cover0_2 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-! ## The body's triple -/

set_option maxHeartbeats 1000000 in
/-- The body on whole staging memrefs, the two factors' at read contents and the product's at anything, runs to
    the continuation holding the factors' as they were and the product's at `out0_2` of them. -/
theorem sound_kernel0 (c : Dev nD) (E : Set ℕ) (i : grid0.Coords)
    (arg1 : Memref sig .tc .vmem S128x1024 .f32) (harg1 : arg1.IsWhole)
    (arg2 : Memref sig .tc .vmem S1024x1024 .f32) (harg2 : arg2.IsWhole)
    (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them; after the body at point `t`
    each factor's buffer at its block and the product's at `out0_2` of the two blocks; the invariant is the
    untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each factor's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BitsReg1Conds.lean ====
/-
  The pairwise-distance kernel runs on a grid of 8 × 4 points (i, j): point t has i = t / 4 and j = t % 4. Its body
  has two conditionals on j alone. At j = 0 it clears the running sum it keeps in its scratch; at j = 3 it writes the
  running sum, less one, into the output block. So every point is in one of three cases: the first of a row of four
  (clear, then add), a middle one (add), the last (add, then write out). This module states the two conditions, decides
  their closed forms over the 32 points, and records where the output window is idle and where it is written back.
-/
import proofs.«106312_j48043504173685_2_alg».proof.Proof.Gen.Kernel.Launch
import proofs.«106312_j48043504173685_2_alg».proof.Proof.Gen.Kernel.Skeleton
import proofs.«106312_j48043504173685_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional: the second grid coordinate is zero. -/
abbrev cond1_0 (i : grid1.Coords) : Prop := (Scalar.cmpi .ne (Scalar.extui (Scalar.cmpi .eq (BitVec.ofNat 32 (i 1).val) 0#32)) 0#32) = 1#1
/-- It holds exactly at the points t with t % 4 = 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second conditional: the second grid coordinate is the last, 3. -/
abbrev cond1_1 (i : grid1.Coords) : Prop := k1_cond2 i = 1#1
/-- It holds exactly at the points t with t % 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional fails the output window is idle (nothing is stored into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it holds the output window is live, and is written back. -/
theorem liveAt1_2 : ∀ t : Fin cfg1.N, cond1_1 (grid1.coords t) → cfg1.idle 2 (grid1.coords t) = false := by decide +kernel
theorem flushAt1_2 : ∀ t : Fin cfg1.N, cond1_1 (grid1.coords t) → (cfg1.win 2).flush t = true := by decide +kernel

/-- One staging buffer of the output window, through which its contents are stated. -/
abbrev VO1_2 : View sig .tc .vmem S16x128 .f32 := (Memref.whole cc1_stg2_0 : Memref sig .tc .vmem S16x128 .f32).view
/-- Each window's current staging memref at point t, spelled as the pipeline passes it, and its wholeness. -/
abbrev ms1_0 (t : Fin cfg1.N) : Memref sig .tc .vmem S16x32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x128 .f32 := win1_2.stage (cfg1.slots t 2)
abbrev hs1_2 (t : Fin cfg1.N) : (ms1_2 t).IsWhole := hstage1_2 ((cfg1.slots t 2).cast nbuf1_2)
/-- The scratch that holds the running sum: a whole buffer of the kernel's own, passed beside the windows. -/
abbrev scM1_0 : Memref sig .tc .vmem S16x128 .f32 := Memref.whole cc1_scratch0
/-- The scratch as a view: what it holds is stated through it. -/
abbrev VS1_0 : View sig .tc .vmem S16x128 .f32 := scM1_0.view

/-- The region's invariant with the scratch shown as a memref owned at some contents, beside the other scoped buffers
    (the first pallas_call's staging buffers, untouched here) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.BitsReg1RunA.lean ====
/-
  The body at the first point of a row of four (j = 0). It clears the scratch, reads the 32 slices of each input block,
  adds to the cleared scratch, over the 32 rows of the second block, the exponential of minus the summed absolute
  differences, and stores the sum back into the scratch. The output block is not touched.
-/
import proofs.«106312_j48043504173685_2_alg».proof.Proof.BitsReg1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the scratch at a point with j = 0, as pieces (last first), with the proof that on
    whole staging memrefs — the inputs at their contents, the output block at contents handed back untouched, the scratch
    at anything — the body runs to the continuation holding the inputs and the output block as they were and the scratch
    with those pieces written. -/
noncomputable def kernelRun1_A (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : cond1_0 i) (hc1 : ¬cond1_1 i)
    (x0 : Vec F S16x32x128 .f32) (x1 : Vec F S32x32x128 .f32) :
    { LS0 : List (View.Piece (Elt F) S16x128 .f32) //
      ∀ (xi2 : Vec F S16x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨?_, fun xi2 E K => ?run⟩
  case run =>
    simp only [cc1__l1_kernel_eq_skeleton]; unfold cc1__l1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BitsReg1RunB.lean ====
/-
  The body at a middle point of a row of four (j = 1 or 2). It reads the 32 slices of each input block and adds to what
  the scratch holds, over the 32 rows of the second block, the exponential of minus the summed absolute differences,
  storing the sum back into the scratch. The output block is not touched.
-/
import proofs.«106312_j48043504173685_2_alg».proof.Proof.BitsReg1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the scratch at a point with 0 < j < 3, as pieces (last first), with the proof that on
    whole staging memrefs — the inputs at their contents, the output block at contents handed back untouched, the scratch
    at what the point before left — the body runs to the continuation holding the inputs and the output block as they
    were and the scratch with those pieces written. -/
noncomputable def kernelRun1_B (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : ¬cond1_1 i)
    (x0 : Vec F S16x32x128 .f32) (x1 : Vec F S32x32x128 .f32) (xs0 : Vec F S16x128 .f32) :
    { LS0 : List (View.Piece (Elt F) S16x128 .f32) //
      ∀ (xi2 : Vec F S16x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨?_, fun xi2 E K => ?run⟩
  case run =>
    simp only [cc1__l1_kernel_eq_skeleton]; unfold cc1__l1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.BitsReg1RunC.lean ====
/-
  The body at the last point of a row of four (j = 3). It reads the 32 slices of each input block, adds to what the
  scratch holds, over the 32 rows of the second block, the exponential of minus the summed absolute differences, stores
  the sum back into the scratch, and then writes the scratch less one into the output block.
-/
import proofs.«106312_j48043504173685_2_alg».proof.Proof.BitsReg1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in the scratch at a point with j = 3, as pieces (last first),
    with the proof that on whole staging memrefs — the inputs at their contents, the output block at anything, the scratch
    at what the point before left — the body runs to the continuation holding the inputs as they were and the output
    block and the scratch with those pieces written. -/
noncomputable def kernelRun1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) :
    Σ' (L2 : List (View.Piece (Elt F) S16x128 .f32)), { LS0 : List (View.Piece (Elt F) S16x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨?_, ?_, fun E K => ?run⟩
  case run =>
    simp only [cc1__l1_kernel_eq_skeleton]; unfold cc1__l1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.BitsReg1.lean ====
/-
  The second pallas_call as one half of the program's frame, at the contents V the TensorCore's buffers hold when the
  region is entered. Its grid has 32 points t = 4 i + j. Window 0 is the block of 16 rows i of the projected array,
  window 1 the block of 32 rows j of the SAME array, window 2 the block of 16 rows i of the result. The kernel keeps a
  running sum in a scratch buffer: cleared at j = 0, increased at every j by the sum over the 32 rows q of window 1 of
  exp (-(sum over t of |mq[p, t, o] - mk[q, t, o]|)), and written out less one at j = 3. So what the scratch holds after
  point t is a recursion over the points (the contents after t - 1 enter the body at t unless j = 0), and the output
  block is idle except at j = 3. This module states that recursion, the proof data of the pipeline and its body
  obligation.
-/
import proofs.«106312_j48043504173685_2_alg».proof.Proof.BitsReg1RunA
import proofs.«106312_j48043504173685_2_alg».proof.Proof.BitsReg1RunB
import proofs.«106312_j48043504173685_2_alg».proof.Proof.BitsReg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each case leaves -/

/-- The first case's pieces for the scratch cover it. -/
theorem scover1_A (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : cond1_0 i) (hc1 : ¬cond1_1 i)
    (x0 : Vec F S16x32x128 .f32) (x1 : Vec F S32x32x128 .f32) (y : S16x128.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S16x128.size (by sl_kernel_rfl) y
/-- What the first case leaves in the scratch: the cleared scratch plus this point's sum. -/
def sout1_A (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : cond1_0 i) (hc1 : ¬cond1_1 i)
    (x0 : Vec F S16x32x128 .f32) (x1 : Vec F S32x32x128 .f32) : Vec F S16x128 .f32 :=
  VS1_0.read (Elt F) (VS1_0.writes (Elt F) VS1_0.junk (kernelRun1_A c i arg2 harg2 arg3 harg3 arg4 harg4 arg5 harg5 hc0 hc1 x0 x1).1)

/-- The middle case's pieces for the scratch cover it. -/
theorem scover1_B (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : ¬cond1_1 i)
    (x0 : Vec F S16x32x128 .f32) (x1 : Vec F S32x32x128 .f32) (xs0 : Vec F S16x128 .f32) (y : S16x128.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S16x128.size (by sl_kernel_rfl) y
/-- What the middle case leaves in the scratch: what it held plus this point's sum. -/
def sout1_B (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : ¬cond1_1 i)
    (x0 : Vec F S16x32x128 .f32) (x1 : Vec F S32x32x128 .f32) (xs0 : Vec F S16x128 .f32) : Vec F S16x128 .f32 :=
  VS1_0.read (Elt F) (VS1_0.writes (Elt F) VS1_0.junk (kernelRun1_B c i arg2 harg2 arg3 harg3 arg4 harg4 arg5 harg5 hc0 hc1 x0 x1 xs0).1)

/-- The last case's pieces for the output block cover it. -/
theorem cover1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) (y : S16x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S16x128.size (by sl_kernel_rfl) y
/-- What the last case leaves in the output block: the final sum less one. -/
def out1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) : Vec F S16x128 .f32 :=
  VO1_2.read (Elt F) (VO1_2.writes (Elt F) VO1_2.junk (kernelRun1_C c i arg2 harg2 arg3 harg3 arg4 harg4 arg5 harg5 hc0 hc1 x0 x1 xs0).1)
/-- The last case's pieces for the scratch cover it. -/
theorem scover1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) (y : S16x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S16x128.size (by sl_kernel_rfl) y
/-- What the last case leaves in the scratch: what it held plus this point's sum. -/
def sout1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) : Vec F S16x128 .f32 :=
  VS1_0.read (Elt F) (VS1_0.writes (Elt F) VS1_0.junk (kernelRun1_C c i arg2 harg2 arg3 harg3 arg4 harg4 arg5 harg5 hc0 hc1 x0 x1 xs0).2.1)

/-- A value for the output block at the points where nothing is stored into it: no certificate reads it, since there
    the block is neither written back nor read at the next point. -/
def outIdle1 : Vec F S16x128 .f32 := VO1_2.read (Elt F) VO1_2.junk

section Region1b
variable (V : (c : Dev nD) → (b : Ref sig .tc) → Buf (Elt F) ((c : Thread nD τ).loc b))

/-! ## What the output block and the scratch hold after each point -/

/-- THE ACCUMULATION: the output block's staging buffer and the scratch after the body at position n. At n % 4 = 0 the
    scratch is the first case's, whatever it held; otherwise the case's contents over what position n - 1 left in it;
    at n % 4 = 3 the output block is the last case's. -/
def outsAt1 (c : Dev nD) : (n : ℕ) → n < cfg1.N → Vec F S16x128 .f32 × Vec F S16x128 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point of the first case. -/
theorem outsAt1_A (c : Dev nD) (t : Fin cfg1.N) (h0 : t.val % 4 = 0) (h1 : ¬t.val % 4 = 3) :
    outsAt1 V c t.val t.isLt = (outIdle1, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle point: over what the point before left in the scratch. -/
theorem outsAt1_B (c : Dev nD) (t : Fin cfg1.N) (h0 : ¬t.val % 4 = 0) (h1 : ¬t.val % 4 = 3) :
    outsAt1 V c t.val t.isLt = (outIdle1, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: over what the point before left in the scratch. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point: every scoped buffer the pipeline does not stage at anything, and the generator register.
    After point n: the same with the scratch at what point n left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core c: the arrays as the region finds them; after the body at point t
    each input's buffer at its block and the output's at the accumulation's first component; the invariant above;
    nothing owed; the one array the two input windows read held half by each, the output's array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region1b

end Cert.Kernel.Hand

end
-- ==== Proof.BitsReg1Body.lean ====
/-
  The body obligation of the second pipeline: at every grid point, from the region's invariant (which holds the running
  sum in the scratch at what the point before left, or at anything before the very first point), the core's dues and each
  window's current buffer at what it then holds, the kernel body runs to the invariant at the next point. The proof
  takes the point's case from t % 4 and applies that case's run of the body.
-/
import proofs.«106312_j48043504173685_2_alg».proof.Proof.BitsReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1c
variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; t % 4 says which case the point is in; the invariant
    hands the body the scratch at what the point before left (at anything at the very first point) and takes it back at
    this point's contents; where nothing is stored into the output block it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Ha, Hb, Hc, Hd, He, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      have hz : t.val ≠ 0 := by omega
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1c

end Cert.Kernel.Hand

end
-- ==== Proof.BitsRunData.lean ====
/-
  The contents of the TensorCore's buffers at every boundary of the program's five segments — three stretches of host
  operations around the two pallas_calls — as a fold from the launch memory; the proof data of both pipelines, each at
  its region's entry contents; and, for the second pipeline, whose two input windows read ONE array, how that array's
  buffer is shared out between them at entry (a half each) and joined again, unchanged, at exit.
-/
import proofs.«106312_j48043504173685_2_alg».proof.Proof.BitsReg0
import proofs.«106312_j48043504173685_2_alg».proof.Proof.BitsReg1Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (the permutation of T's columns): the first region's entry. -/
abbrev W1 : Dev nD → Valuation τ sig (Elt F) := fun c => StableHlo.after hostOps0 (W0 m ρ c)
/-- The same read at the TensorCore's references. -/
abbrev E0 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X0 : (c : Dev nD) → (b : Ref sig .tc) → Buf (Elt F) ((c : Thread nD τ).loc b) := fun c b => W2 m ρ c b
theorem hF0 (c : Dev nD) (w : Fin cfg0.W) : (dat0 (E0 m ρ) c).arrAt w cfg0.N = X0 m ρ c (Pipeline.arrRef spec0 w) :=
  (W2_arr m ρ c w).symm
theorem hrest0 (c : Dev nD) : ∀ b, b ∉ Finset.univ.image (Pipeline.arrRef spec0) → X0 m ρ c b = E0 m ρ c b :=
  fun b hb => W2_of_ne m ρ c b fun w e => hb (Finset.mem_image.mpr ⟨w, Finset.mem_univ _, e⟩)

/-- After the second host stretch (the reshape to rows × 32 × 128): the second region's entry. -/
abbrev W3 : Dev nD → Valuation τ sig (Elt F) := fun c => StableHlo.after hostOps1 (W2 m ρ c)
abbrev E1 : (c : Dev nD) → (b : Ref sig .tc) → Buf (Elt F) ((c : Thread nD τ).loc b) := fun c b => W3 m ρ c b
/-- At the second region's exit: the result array at what the pipeline leaves, every other buffer as entered (the
    array its two input windows read is not written). -/
def W4 (c : Dev nD) : Valuation τ sig (Elt F) :=
  Function.update (W3 m ρ c) main_v5 ((dat1 (E1 m ρ) c).arrAt 2 cfg1.N)
theorem W4_v5 (c : Dev nD) : W4 m ρ c main_v5 = (dat1 (E1 m ρ) c).arrAt 2 cfg1.N := by
  unfold W4; exact Function.update_self ..
theorem W4_of_ne (c : Dev nD) (b : Ref sig .tc) (hb : b ≠ main_v5) : W4 m ρ c b = W3 m ρ c b := by
  unfold W4
  exact Function.update_of_ne (StableHlo.devRef_ne_of_ne hb : (Proc.devRef .tc b : DevRef τ sig) ≠ Proc.devRef .tc main_v5) ..
abbrev X1 : (c : Dev nD) → (b : Ref sig .tc) → Buf (Elt F) ((c : Thread nD τ).loc b) := fun c b => W4 m ρ c b
/-- After the last host stretch (the concatenation of x and the result): the end. -/
abbrev W5 : Dev nD → Valuation τ sig (Elt F) := fun c => StableHlo.after hostOps2 (W4 m ρ c)

/-! ## The proof data family -/

/-- No pipeline has a prefetched table. -/
abbrev admH : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E0 m ρ) c
  | ⟨1, _⟩ => fun c => dat1 (E1 m ρ) c

/-! ## The second pipeline's arrays: one buffer read through two windows -/

/-- The two distinct buffers behind the second pipeline's three windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs; exact bigSep_eq_bigSepL_of_eq [main_v4, main_v5] (by decide) (by decide) _

/-- The second pipeline's arrays, window by window: the projected array's buffer at the left half share for window 0
    and at the right half for window 1, the result's buffer at the full share. -/
theorem arrays1_eq (c : Dev nD) (V : (c : Dev nD) → (b : Ref sig .tc) → Buf (Elt F) ((c : Thread nD τ).loc b))
    (A : (w : Fin cfg1.W) → Buf (Elt F) ((cfg1.win w).arr.view.loc (c.tc : Thread nD τ))) :
    ((dat1 V c).arrays A : sProp 𝕄)
      = iprop((((c : Thread nD τ).loc main_v4) ↦{fullShare.left} A 0) ∗ (((c : Thread nD τ).loc main_v4) ↦{fullShare.right} A 1)
          ∗ (((c : Thread nD τ).loc main_v5) ↦{fullShare} A 2)) := by
  unfold Dat.arrays
  rw [bigSep_W1, (arr_whole1 0).set_eq_univ, (arr_whole1 2).set_eq_univ]
  rfl

/-- ENTRY. The two distinct buffers behind the second pipeline's three windows, each whole at the full share, make the
    proof data's arrays: the projected array's buffer split in two halves, one per input window; the result's whole. -/
theorem arrays_in1 (c : Dev nD) :
    (Pipeline.arrBufs (Ix := Unit) (Name := ℕ) (U := UR sig nD τ) (Lvl := ℕ) spec1 c (E1 m ρ c) : sProp 𝕄)
      ⊢ (dat1 (E1 m ρ) c).arrays ((dat1 (E1 m ρ) c).arrAt · 0) := by
  rw [arrBufs1_eq, arrays1_eq]
  iintro ⟨H4, H5⟩
  ihave H4' := (pointsTo_share (PosShare.mem_left_op_right fullShare)).1 $$ H4
  icases H4' with ⟨Hl, Hr⟩
  isplitl [Hl]; · iexact Hl
  isplitl [Hr]; · iexact Hr
  iexact H5

/-- EXIT. The arrays after the last point — each input window's half of the projected array as entered, the result at
    what the write-backs left — are the two buffers whole at the exit contents. -/
theorem arrays_out1 (c : Dev nD) :
    (dat1 (E1 m ρ) c).arrays ((dat1 (E1 m ρ) c).arrAt · cfg1.N)
      ⊢ (Pipeline.arrBufs (Ix := Unit) (Name := ℕ) (U := UR sig nD τ) (Lvl := ℕ) spec1 c (X1 m ρ c) : sProp 𝕄) := by
  rw [arrBufs1_eq, arrays1_eq]
  beta_reduce
  rw [(dat1 (E1 m ρ) c).arrAt_in 0 rfl cfg1.N, (dat1 (E1 m ρ) c).arrAt_in 1 rfl cfg1.N]
  rw [show X1 m ρ c main_v4 = E1 m ρ c main_v4 from W4_of_ne m ρ c main_v4 (by decide),
    show X1 m ρ c main_v5 = (dat1 (E1 m ρ) c).arrAt 2 cfg1.N from W4_v5 m ρ c]
  iintro ⟨Hl, Hr, H5⟩
  isplitl [Hl Hr]
  · iapply (pointsTo_share (PosShare.mem_left_op_right fullShare)).2
    isplitl [Hl]; · iexact Hl
    iexact Hr
  iexact H5

/-- The unscoped buffers that are no array of the second pipeline hold at its exit what they held at its entry. -/
theorem rest_eq1 (c : Dev nD) :
    (Pipeline.unscopedRest (Ix := Unit) (Name := ℕ) (U := UR sig nD τ) (Lvl := ℕ) spec1 c (E1 m ρ c) : sProp 𝕄)
      = Pipeline.unscopedRest spec1 c (X1 m ρ c) := by
  rw [unscopedRest1_eq, unscopedRest1_eq]
  rw [show X1 m ρ c main_arg0 = E1 m ρ c main_arg0 from W4_of_ne m ρ c main_arg0 (by decide),
    show X1 m ρ c main_arg1 = E1 m ρ c main_arg1 from W4_of_ne m ρ c main_arg1 (by decide),
    show X1 m ρ c main_v0 = E1 m ρ c main_v0 from W4_of_ne m ρ c main_v0 (by decide),
    show X1 m ρ c main_v1 = E1 m ρ c main_v1 from W4_of_ne m ρ c main_v1 (by decide),
    show X1 m ρ c main_v2 = E1 m ρ c main_v2 from W4_of_ne m ρ c main_v2 (by decide),
    show X1 m ρ c main_v3 = E1 m ρ c main_v3 from W4_of_ne m ρ c main_v3 (by decide),
    show X1 m ρ c main_v6 = E1 m ρ c main_v6 from W4_of_ne m ρ c main_v6 (by decide)]

end Cert.Kernel.Hand

end
-- ==== Proof.BitsRun.lean ====
/-
  The program's run. Its five segments — the permutation of T's columns on the host, the matrix product, the reshape,
  the pairwise-distance kernel, the concatenation — are chained over one thread state: every unscoped buffer of the
  core held at the boundary's contents, the generator register at some state, nothing owed. Each pallas_call enters
  as a region record: its arrays are split out of the unscoped buffers at entry and put back at what the pipeline
  leaves at exit (for the second, whose two input windows read one array, through the halves of that array's buffer).
  Every weakly fair execution then terminates with every unscoped buffer at the last boundary's contents.
-/
import proofs.«106312_j48043504173685_2_alg».proof.Proof.BitsRunData

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A host stretch as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- No host operation of the program allocates a buffer. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev TN (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The matrix product's region: entered from every unscoped buffer at the first boundary's contents, left at the
    second's. Its three arrays are distinct buffers. -/
def reg0 : Pipeline.RegionSeg (pcfgs (F := F)) admH (pdats m ρ) () defs₀ 𝒱₀ LH lvH 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise-distance kernel's region: entered from every unscoped buffer at the third boundary's contents, left at
    the fourth's. Its two input windows read one array: the buffers behind its arrays are split out of the unscoped
    buffers, the shared one halved between the two windows, and joined again at exit. -/
def reg1 : Pipeline.RegionSeg (pcfgs (F := F)) admH (pdats m ρ) () defs₀ 𝒱₀ LH lvH 1 where
  win := winFacts₀1
  block_pos := block_pos1
  stage_whole := stage_whole1
  K := PEmpty
  osem k := k.elim
  ho := Pipeline.OwnSemFacts.none _
  hbody c := (body_obligation1 (E1 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit : (unscopedBufs (Ix := Unit) (Name := ℕ) (U := UR sig nD τ) (Lvl := ℕ) c (E1 m ρ c) : sProp 𝕄)
        ⊢ iprop((pdats m ρ 1 c).arrays ((pdats m ρ 1 c).arrAt · 0) ∗ Pipeline.unscopedRest spec1 c (E1 m ρ c)) := by
      rw [Pipeline.unscopedBufs_split₀ (Pipeline.pin (pcfgs (F := F)) admH) 1 winFacts₀1.arr_unscoped c (E1 m ρ c)]
      exact BIClass.sep_mono (arrays_in1 m ρ c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (E1 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (E1 m ρ c))
        ⊢ (unscopedBufs (Ix := Unit) (Name := ℕ) (U := UR sig nD τ) (Lvl := ℕ) c (X1 m ρ c) : sProp 𝕄) := by
      rw [Pipeline.unscopedBufs_split₀ (Pipeline.pin (pcfgs (F := F)) admH) 1 winFacts₀1.arr_unscoped c (X1 m ρ c)]
      exact BIClass.sep_mono (arrays_out1 m ρ c) (Entails.of_eq (rest_eq1 m ρ c))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The program's five segments in order. -/
abbrev segsH : List (Pipeline.Seg (pcfgs (F := F)) admH (pdats m ρ) () defs₀ 𝒱₀ LH lvH) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)) ]
/-- @main is the run of the segments. -/
theorem main_run (c : Dev nD) : main (F := F) c = Pipeline.Seg.run (segsH m ρ) := (main_chain c).trans (by chain_rfl)

set_option backward.isDefEq.respectTransparency.types false in
/-- THE RUN, at any F: from any memory with zero counters every weakly fair execution of @main on the TensorCores
    terminates, nothing faulting, and every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TN m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ RH c)
        ⊢ iprop(TN m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.BitsRunArgs.lean ====
/-
  The two argument arrays reach the end as launched: no host operation writes an argument, the matrix product's region
  reads the first through an input window (an input's array is never written) and does not touch the second, and the
  pairwise-distance kernel's region changes its result array only. So the last boundary's contents at an argument walk
  back, segment by segment, to the launch memory.
-/
import proofs.«106312_j48043504173685_2_alg».proof.Proof.BitsRunData
import proofs.«106312_j48043504173685_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m ρ c main_arg0 = m ((c : Thread nD τ).loc main_arg0) :=
  calc W5 m ρ c main_arg0
    _ = W4 m ρ c main_arg0 := StableHlo.after_of_writes_sub hostOps2 _ hostOps2_writes (by decide)
    _ = W3 m ρ c main_arg0 := W4_of_ne m ρ c main_arg0 (by decide)
    _ = W2 m ρ c main_arg0 := StableHlo.after_of_writes_sub hostOps1 _ hostOps1_writes (by decide)
    _ = W1 m ρ c main_arg0 := (W2_arr m ρ c 0).trans (((dat0 (E0 m ρ) c).arrAt_in 0 rfl _).trans (A_eq0 (E0 m ρ) c 0))
    _ = W0 m ρ c main_arg0 := StableHlo.after_of_writes_sub hostOps0 _ hostOps0_writes (by decide)
    _ = m ((c : Thread nD τ).loc main_arg0) := rfl

theorem W5_main_arg1 (c : Dev nD) : W5 m ρ c main_arg1 = m ((c : Thread nD τ).loc main_arg1) :=
  calc W5 m ρ c main_arg1
    _ = W4 m ρ c main_arg1 := StableHlo.after_of_writes_sub hostOps2 _ hostOps2_writes (by decide)
    _ = W3 m ρ c main_arg1 := W4_of_ne m ρ c main_arg1 (by decide)
    _ = W2 m ρ c main_arg1 := StableHlo.after_of_writes_sub hostOps1 _ hostOps1_writes (by decide)
    _ = W1 m ρ c main_arg1 := W2_of_ne m ρ c main_arg1 (by decide)
    _ = W0 m ρ c main_arg1 := StableHlo.after_of_writes_sub hostOps0 _ hostOps0_writes (by decide)
    _ = m ((c : Thread nD τ).loc main_arg1) := rfl

end Cert.Kernel.Hand

end
-- ==== Proof.IdealReg0.lean ====
import proofs.«106312_j48043504173685_2_alg».proof.Proof.Gen.KernelIdeal.Launch
import proofs.«106312_j48043504173685_2_alg».proof.Proof.Gen.KernelIdeal.Skeleton
import proofs.«106312_j48043504173685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The matrix-product region

The first region of the program multiplies a 128 x 1024 matrix by a 1024 x 4096 matrix, one block of
1024 columns per grid point (four points).  This module states, at any float model, what the region's
body leaves in each window's staging buffer at a point as a function of the blocks it is handed, and
proves that the body meets that description at every point.  Everything is relative to a parameter
`V`, the contents of the core's buffers when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's staging buffer holds the (one) block of the left matrix at every point, although it is
    fetched at the first point only: where it is not fetched its block index has not moved, and the body leaves
    the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The right factor's staging buffer holds the point's block of 1024 columns of the right matrix. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S128x1024 := Rect.unit (s := S128x1024) ![0, 0] S128x1024.size inb_S128x1024_S128x1024_0_0
abbrev r0_1 : Rect S1024x1024 := Rect.unit (s := S1024x1024) ![0, 0] S1024x1024.size inb_S1024x1024_S1024x1024_0_0

/-! ## What the body leaves in the product's buffer -/

/-- The product window's staging buffer after the body, from the two factor blocks: one store of the whole
    block, the product of the two blocks. -/
def out0_2 (x0 : Vec F S128x1024 .f32) (x1 : Vec F S1024x1024 .f32) : Vec F S128x1024 .f32 :=
  View.canon [⟨r0_0, k0_pay1 (View.ld x0 r0_0) (View.ld x1 r0_1)⟩]

/-- The one store is of the whole block, so it covers it. -/
theorem cover0_2 (p0 : Vec F S128x1024 .f32) (y : S128x1024.Idx) :
    ∃ pc ∈ ([⟨r0_0, p0⟩] : List (View.Piece (Elt F) S128x1024 .f32)), y ∈ pc.1.set :=
  View.cover_of_tiled [⟨r0_0, p0⟩] S128x1024.size (by rfl) y

/-! ## The body's triple -/

set_option maxHeartbeats 1000000 in
/-- The body on whole staging memrefs, the two factors' at read contents and the product's at anything, runs to
    the continuation holding the factors' as they were and the product's at `out0_2` of them. -/
theorem sound_kernel0 (c : Dev nD) (E : Set ℕ) (i : grid0.Coords)
    (arg1 : Memref sig .tc .vmem S128x1024 .f32) (harg1 : arg1.IsWhole)
    (arg2 : Memref sig .tc .vmem S1024x1024 .f32) (harg2 : arg2.IsWhole)
    (arg3 : Memref sig .tc .vmem S128x1024 .f32) (harg3 : arg3.IsWhole)
    (x0 : Vec F S128x1024 .f32) (x1 : Vec F S1024x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The proof data of the region on core `c`: the arrays as the region finds them; after the body at point `t`
    each factor's buffer at its block and the product's at `out0_2` of the two blocks; the invariant is the
    untouched rest of the core; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each factor's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' memrefs hold their blocks, so `sound_kernel0` applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.IdealReg1Conds.lean ====
/-
  The pairwise-distance kernel runs on a grid of 8 × 4 points (i, j): point t has i = t / 4 and j = t % 4. Its body
  has two conditionals on j alone. At j = 0 it clears the running sum it keeps in its scratch; at j = 3 it writes the
  running sum, less one, into the output block. So every point is in one of three cases: the first of a row of four
  (clear, then add), a middle one (add), the last (add, then write out). This module states the two conditions, decides
  their closed forms over the 32 points, and records where the output window is idle and where it is written back.
-/
import proofs.«106312_j48043504173685_2_alg».proof.Proof.Gen.KernelIdeal.Launch
import proofs.«106312_j48043504173685_2_alg».proof.Proof.Gen.KernelIdeal.Skeleton
import proofs.«106312_j48043504173685_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's first conditional: the second grid coordinate is zero. -/
abbrev cond1_0 (i : grid1.Coords) : Prop := (Scalar.cmpi .ne (Scalar.extui (Scalar.cmpi .eq (BitVec.ofNat 32 (i 1).val) 0#32)) 0#32) = 1#1
/-- It holds exactly at the points t with t % 4 = 0. -/
theorem hcond1_0 : ∀ t : Fin cfg1.N, cond1_0 (grid1.coords t) ↔ t.val % 4 = 0 :=
  (by decide +kernel : ∀ t : Fin grid1.N, cond1_0 (grid1.coords t) ↔ t.val % 4 = 0)

/-- The body's second conditional: the second grid coordinate is the last, 3. -/
abbrev cond1_1 (i : grid1.Coords) : Prop := k1_cond2 i = 1#1
/-- It holds exactly at the points t with t % 4 = 3. -/
theorem hcond1_1 : ∀ t : Fin cfg1.N, cond1_1 (grid1.coords t) ↔ t.val % 4 = 3 :=
  (by decide +kernel : ∀ t : Fin grid1.N, cond1_1 (grid1.coords t) ↔ t.val % 4 = 3)

/-- The two input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Where the second conditional fails the output window is idle (nothing is stored into it) and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it holds the output window is live, and is written back. -/
theorem liveAt1_2 : ∀ t : Fin cfg1.N, cond1_1 (grid1.coords t) → cfg1.idle 2 (grid1.coords t) = false := by decide +kernel
theorem flushAt1_2 : ∀ t : Fin cfg1.N, cond1_1 (grid1.coords t) → (cfg1.win 2).flush t = true := by decide +kernel

/-- One staging buffer of the output window, through which its contents are stated. -/
abbrev VO1_2 : View sig .tc .vmem S16x128 .f32 := (Memref.whole cc1_stg2_0 : Memref sig .tc .vmem S16x128 .f32).view
/-- Each window's current staging memref at point t, spelled as the pipeline passes it, and its wholeness. -/
abbrev ms1_0 (t : Fin cfg1.N) : Memref sig .tc .vmem S16x32x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S32x32x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x128 .f32 := win1_2.stage (cfg1.slots t 2)
abbrev hs1_2 (t : Fin cfg1.N) : (ms1_2 t).IsWhole := hstage1_2 ((cfg1.slots t 2).cast nbuf1_2)
/-- The scratch that holds the running sum: a whole buffer of the kernel's own, passed beside the windows. -/
abbrev scM1_0 : Memref sig .tc .vmem S16x128 .f32 := Memref.whole cc1_scratch0
/-- The scratch as a view: what it holds is stated through it. -/
abbrev VS1_0 : View sig .tc .vmem S16x128 .f32 := scM1_0.view

/-- The region's invariant with the scratch shown as a memref owned at some contents, beside the other scoped buffers
    (the first pallas_call's staging buffers, untouched here) and the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.IdealReg1RunA.lean ====
/-
  The body at the first point of a row of four (j = 0). It clears the scratch, reads the 32 slices of each input block,
  adds to the cleared scratch, over the 32 rows of the second block, the exponential of minus the summed absolute
  differences, and stores the sum back into the scratch. The output block is not touched.
-/
import proofs.«106312_j48043504173685_2_alg».proof.Proof.IdealReg1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the scratch at a point with j = 0, as pieces (last first), with the proof that on
    whole staging memrefs — the inputs at their contents, the output block at contents handed back untouched, the scratch
    at anything — the body runs to the continuation holding the inputs and the output block as they were and the scratch
    with those pieces written. -/
noncomputable def kernelRun1_A (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : cond1_0 i) (hc1 : ¬cond1_1 i)
    (x0 : Vec F S16x32x128 .f32) (x1 : Vec F S32x32x128 .f32) :
    { LS0 : List (View.Piece (Elt F) S16x128 .f32) //
      ∀ (xi2 : Vec F S16x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨?_, fun xi2 E K => ?run⟩
  case run =>
    simp only [cc1__l1_kernel_eq_skeleton]; unfold cc1__l1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.IdealReg1RunB.lean ====
/-
  The body at a middle point of a row of four (j = 1 or 2). It reads the 32 slices of each input block and adds to what
  the scratch holds, over the 32 rows of the second block, the exponential of minus the summed absolute differences,
  storing the sum back into the scratch. The output block is not touched.
-/
import proofs.«106312_j48043504173685_2_alg».proof.Proof.IdealReg1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the scratch at a point with 0 < j < 3, as pieces (last first), with the proof that on
    whole staging memrefs — the inputs at their contents, the output block at contents handed back untouched, the scratch
    at what the point before left — the body runs to the continuation holding the inputs and the output block as they
    were and the scratch with those pieces written. -/
noncomputable def kernelRun1_B (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : ¬cond1_1 i)
    (x0 : Vec F S16x32x128 .f32) (x1 : Vec F S32x32x128 .f32) (xs0 : Vec F S16x128 .f32) :
    { LS0 : List (View.Piece (Elt F) S16x128 .f32) //
      ∀ (xi2 : Vec F S16x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨?_, fun xi2 E K => ?run⟩
  case run =>
    simp only [cc1__l1_kernel_eq_skeleton]; unfold cc1__l1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.IdealReg1RunC.lean ====
/-
  The body at the last point of a row of four (j = 3). It reads the 32 slices of each input block, adds to what the
  scratch holds, over the 32 rows of the second block, the exponential of minus the summed absolute differences, stores
  the sum back into the scratch, and then writes the scratch less one into the output block.
-/
import proofs.«106312_j48043504173685_2_alg».proof.Proof.IdealReg1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output block and in the scratch at a point with j = 3, as pieces (last first),
    with the proof that on whole staging memrefs — the inputs at their contents, the output block at anything, the scratch
    at what the point before left — the body runs to the continuation holding the inputs as they were and the output
    block and the scratch with those pieces written. -/
noncomputable def kernelRun1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) :
    Σ' (L2 : List (View.Piece (Elt F) S16x128 .f32)), { LS0 : List (View.Piece (Elt F) S16x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__l1_kernel i arg2 harg2 arg3 harg3 arg4 harg4 arg5 harg5) K } := by
  refine ⟨?_, ?_, fun E K => ?run⟩
  case run =>
    simp only [cc1__l1_kernel_eq_skeleton]; unfold cc1__l1_kernel_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.IdealReg1.lean ====
/-
  The second pallas_call as one half of the program's frame, at the contents V the TensorCore's buffers hold when the
  region is entered. Its grid has 32 points t = 4 i + j. Window 0 is the block of 16 rows i of the projected array,
  window 1 the block of 32 rows j of the SAME array, window 2 the block of 16 rows i of the result. The kernel keeps a
  running sum in a scratch buffer: cleared at j = 0, increased at every j by the sum over the 32 rows q of window 1 of
  exp (-(sum over t of |mq[p, t, o] - mk[q, t, o]|)), and written out less one at j = 3. So what the scratch holds after
  point t is a recursion over the points (the contents after t - 1 enter the body at t unless j = 0), and the output
  block is idle except at j = 3. This module states that recursion, the proof data of the pipeline and its body
  obligation.
-/
import proofs.«106312_j48043504173685_2_alg».proof.Proof.IdealReg1RunA
import proofs.«106312_j48043504173685_2_alg».proof.Proof.IdealReg1RunB
import proofs.«106312_j48043504173685_2_alg».proof.Proof.IdealReg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (where it is not
    fetched its block index has not moved), for any proof data whose array is V's and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## What each case leaves -/

/-- The first case's pieces for the scratch cover it. -/
theorem scover1_A (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : cond1_0 i) (hc1 : ¬cond1_1 i)
    (x0 : Vec F S16x32x128 .f32) (x1 : Vec F S32x32x128 .f32) (y : S16x128.Idx) :
    ∃ pc ∈ (kernelRun1_A c i arg2 harg2 arg3 harg3 arg4 harg4 arg5 harg5 hc0 hc1 x0 x1).1, y ∈ pc.1.set :=
  View.cover_of_tiledL (kernelRun1_A c i arg2 harg2 arg3 harg3 arg4 harg4 arg5 harg5 hc0 hc1 x0 x1).1 S16x128.size (by sl_kernel_rfl) y
/-- What the first case leaves in the scratch: the cleared scratch plus this point's sum. -/
def sout1_A (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : cond1_0 i) (hc1 : ¬cond1_1 i)
    (x0 : Vec F S16x32x128 .f32) (x1 : Vec F S32x32x128 .f32) : Vec F S16x128 .f32 :=
  VS1_0.read (Elt F) (VS1_0.writes (Elt F) VS1_0.junk (kernelRun1_A c i arg2 harg2 arg3 harg3 arg4 harg4 arg5 harg5 hc0 hc1 x0 x1).1)

/-- The middle case's pieces for the scratch cover it. -/
theorem scover1_B (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : ¬cond1_1 i)
    (x0 : Vec F S16x32x128 .f32) (x1 : Vec F S32x32x128 .f32) (xs0 : Vec F S16x128 .f32) (y : S16x128.Idx) :
    ∃ pc ∈ (kernelRun1_B c i arg2 harg2 arg3 harg3 arg4 harg4 arg5 harg5 hc0 hc1 x0 x1 xs0).1, y ∈ pc.1.set :=
  View.cover_of_tiledL (kernelRun1_B c i arg2 harg2 arg3 harg3 arg4 harg4 arg5 harg5 hc0 hc1 x0 x1 xs0).1 S16x128.size (by sl_kernel_rfl) y
/-- What the middle case leaves in the scratch: what it held plus this point's sum. -/
def sout1_B (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : ¬cond1_1 i)
    (x0 : Vec F S16x32x128 .f32) (x1 : Vec F S32x32x128 .f32) (xs0 : Vec F S16x128 .f32) : Vec F S16x128 .f32 :=
  VS1_0.read (Elt F) (VS1_0.writes (Elt F) VS1_0.junk (kernelRun1_B c i arg2 harg2 arg3 harg3 arg4 harg4 arg5 harg5 hc0 hc1 x0 x1 xs0).1)

/-- The last case's pieces for the output block cover it. -/
theorem cover1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) (y : S16x128.Idx) :
    ∃ pc ∈ (kernelRun1_C c i arg2 harg2 arg3 harg3 arg4 harg4 arg5 harg5 hc0 hc1 x0 x1 xs0).1, y ∈ pc.1.set :=
  View.cover_of_tiledL (kernelRun1_C c i arg2 harg2 arg3 harg3 arg4 harg4 arg5 harg5 hc0 hc1 x0 x1 xs0).1 S16x128.size (by sl_kernel_rfl) y
/-- What the last case leaves in the output block: the final sum less one. -/
def out1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) : Vec F S16x128 .f32 :=
  VO1_2.read (Elt F) (VO1_2.writes (Elt F) VO1_2.junk (kernelRun1_C c i arg2 harg2 arg3 harg3 arg4 harg4 arg5 harg5 hc0 hc1 x0 x1 xs0).1)
/-- The last case's pieces for the scratch cover it. -/
theorem scover1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) (y : S16x128.Idx) :
    ∃ pc ∈ (kernelRun1_C c i arg2 harg2 arg3 harg3 arg4 harg4 arg5 harg5 hc0 hc1 x0 x1 xs0).2.1, y ∈ pc.1.set :=
  View.cover_of_tiledL (kernelRun1_C c i arg2 harg2 arg3 harg3 arg4 harg4 arg5 harg5 hc0 hc1 x0 x1 xs0).2.1 S16x128.size (by sl_kernel_rfl) y
/-- What the last case leaves in the scratch: what it held plus this point's sum. -/
def sout1_C (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) : Vec F S16x128 .f32 :=
  VS1_0.read (Elt F) (VS1_0.writes (Elt F) VS1_0.junk (kernelRun1_C c i arg2 harg2 arg3 harg3 arg4 harg4 arg5 harg5 hc0 hc1 x0 x1 xs0).2.1)

/-- A value for the output block at the points where nothing is stored into it: no certificate reads it, since there
    the block is neither written back nor read at the next point. -/
def outIdle1 : Vec F S16x128 .f32 := VO1_2.read (Elt F) VO1_2.junk

section Region1b
variable (V : (c : Dev nD) → (b : Ref sig .tc) → Buf (Elt F) ((c : Thread nD τ).loc b))

/-! ## What the output block and the scratch hold after each point -/

/-- THE ACCUMULATION: the output block's staging buffer and the scratch after the body at position n. At n % 4 = 0 the
    scratch is the first case's, whatever it held; otherwise the case's contents over what position n - 1 left in it;
    at n % 4 = 3 the output block is the last case's. -/
def outsAt1 (c : Dev nD) : (n : ℕ) → n < cfg1.N → Vec F S16x128 .f32 × Vec F S16x128 .f32
  | 0, hn => (outIdle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 4 = 0 then
      (outIdle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩))
    else
      if h1 : (n + 1) % 4 = 3 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (outIdle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point of the first case. -/
theorem outsAt1_A (c : Dev nD) (t : Fin cfg1.N) (h0 : t.val % 4 = 0) (h1 : ¬t.val % 4 = 3) :
    outsAt1 V c t.val t.isLt = (outIdle1, sout1_A c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans rfl

/-- At a middle point: over what the point before left in the scratch. -/
theorem outsAt1_B (c : Dev nD) (t : Fin cfg1.N) (h0 : ¬t.val % 4 = 0) (h1 : ¬t.val % 4 = 3) :
    outsAt1 V c t.val t.isLt = (outIdle1, sout1_B c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: over what the point before left in the scratch. -/
theorem outsAt1_C (c : Dev nD) (t : Fin cfg1.N) (h0 : ¬t.val % 4 = 0) (h1 : t.val % 4 = 3) :
    outsAt1 V c t.val t.isLt = (out1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before the first point: every scoped buffer the pipeline does not stage at anything, and the generator register.
    After point n: the same with the scratch at what point n left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c n hn).2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of the second pipeline on core c: the arrays as the region finds them; after the body at point t
    each input's buffer at its block and the output's at the accumulation's first component; the invariant above;
    nothing owed; the one array the two input windows read held half by each, the output's array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

end Region1b

end Cert.KernelIdeal.Hand

end
-- ==== Proof.IdealReg1Body.lean ====
/-
  The body obligation of the second pipeline: at every grid point, from the region's invariant (which holds the running
  sum in the scratch at what the point before left, or at anything before the very first point), the core's dues and each
  window's current buffer at what it then holds, the kernel body runs to the invariant at the next point. The proof
  takes the point's case from t % 4 and applies that case's run of the body.
-/
import proofs.«106312_j48043504173685_2_alg».proof.Proof.IdealReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1c
variable (V : (c : Dev nD) → (b : Ref sig .tc) → Buf (Elt F) ((c : Thread nD τ).loc b))

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The inputs' buffers hold their blocks; t % 4 says which case the point is in; the invariant
    hands the body the scratch at what the point before left (at anything at the very first point) and takes it back at
    this point's contents; where nothing is stored into the output block it is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 32 := lt_of_lt_of_eq t.isLt (show cfg1.N = 32 from N_1)
  by_cases h0 : t.val % 4 = 0
  · have h1 : ¬t.val % 4 = 3 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Ha, Hb, Hc, Hd, He, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · by_cases h1 : t.val % 4 = 3
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      have hz : t.val ≠ 0 := by omega
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      have hz : t.val ≠ 0 := by omega
      rw [PhiS1_castSucc V c t, PhiS1_pos V c _ _ hz]
      iintro ⟨⟨⟨Ha, Hb, Hc, Hd, He, HS0⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [Ha Hb Hc Hd He HS0 Hg]
      · isplitl [Ha Hb Hc Hd He HS0]
        · isplitl [Ha]; · iexact Ha
          isplitl [Hb]; · iexact Hb
          isplitl [Hc]; · iexact Hc
          isplitl [Hd]; · iexact Hd
          isplitl [He]; · iexact He
          unfold owns; iexists _; isplitr
          swap; · iexact HS0
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives that back: what the scratch holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Ha, Hb, Hc, Hd, He, HS0⟩, Hg⟩
  isplitl [Ha Hb Hc Hd He HS0]
  · isplitl [Ha]; · iexact Ha
    isplitl [Hb]; · iexact Hb
    isplitl [Hc]; · iexact Hc
    isplitl [Hd]; · iexact Hd
    isplitl [He]; · iexact He
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Region1c

end Cert.KernelIdeal.Hand

end
-- ==== Proof.IdealRunData.lean ====
/-
  The contents of the TensorCore's buffers at every boundary of the program's five segments — three stretches of host
  operations around the two pallas_calls — as a fold from the launch memory; the proof data of both pipelines, each at
  its region's entry contents; and, for the second pipeline, whose two input windows read ONE array, how that array's
  buffer is shared out between them at entry (a half each) and joined again, unchanged, at exit.
-/
import proofs.«106312_j48043504173685_2_alg».proof.Proof.IdealReg0
import proofs.«106312_j48043504173685_2_alg».proof.Proof.IdealReg1Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the first host stretch (the permutation of T's columns): the first region's entry. -/
abbrev W1 : Dev nD → Valuation τ sig (Elt F) := fun c => StableHlo.after hostOps0 (W0 m ρ c)
/-- The same read at the TensorCore's references. -/
abbrev E0 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (E0 m ρ) c).arrAt w cfg0.N
theorem W2_arr (c : Dev nD) (w : Fin cfg0.W) :
    W2 m ρ c (Proc.devRef .tc (Pipeline.arrRef spec0 w)) = (dat0 (E0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev X0 : (c : Dev nD) → (b : Ref sig .tc) → Buf (Elt F) ((c : Thread nD τ).loc b) := fun c b => W2 m ρ c b
theorem hF0 (c : Dev nD) (w : Fin cfg0.W) : (dat0 (E0 m ρ) c).arrAt w cfg0.N = X0 m ρ c (Pipeline.arrRef spec0 w) :=
  (W2_arr m ρ c w).symm
theorem hrest0 (c : Dev nD) : ∀ b, b ∉ Finset.univ.image (Pipeline.arrRef spec0) → X0 m ρ c b = E0 m ρ c b :=
  fun b hb => W2_of_ne m ρ c b fun w e => hb (Finset.mem_image.mpr ⟨w, Finset.mem_univ _, e⟩)

/-- After the second host stretch (the reshape to rows × 32 × 128): the second region's entry. -/
abbrev W3 : Dev nD → Valuation τ sig (Elt F) := fun c => StableHlo.after hostOps1 (W2 m ρ c)
abbrev E1 : (c : Dev nD) → (b : Ref sig .tc) → Buf (Elt F) ((c : Thread nD τ).loc b) := fun c b => W3 m ρ c b
/-- At the second region's exit: the result array at what the pipeline leaves, every other buffer as entered (the
    array its two input windows read is not written). -/
def W4 (c : Dev nD) : Valuation τ sig (Elt F) :=
  Function.update (W3 m ρ c) main_v5 ((dat1 (E1 m ρ) c).arrAt 2 cfg1.N)
theorem W4_v5 (c : Dev nD) : W4 m ρ c main_v5 = (dat1 (E1 m ρ) c).arrAt 2 cfg1.N := by
  unfold W4; exact Function.update_self ..
theorem W4_of_ne (c : Dev nD) (b : Ref sig .tc) (hb : b ≠ main_v5) : W4 m ρ c b = W3 m ρ c b := by
  unfold W4
  exact Function.update_of_ne (StableHlo.devRef_ne_of_ne hb : (Proc.devRef .tc b : DevRef τ sig) ≠ Proc.devRef .tc main_v5) ..
abbrev X1 : (c : Dev nD) → (b : Ref sig .tc) → Buf (Elt F) ((c : Thread nD τ).loc b) := fun c b => W4 m ρ c b
/-- After the last host stretch (the concatenation of x and the result): the end. -/
abbrev W5 : Dev nD → Valuation τ sig (Elt F) := fun c => StableHlo.after hostOps2 (W4 m ρ c)

/-! ## The proof data family -/

/-- No pipeline has a prefetched table. -/
abbrev admH : (p : Fin 2) → (pcfgs (F := F) p).Adm := fun p => (cfgs p).toPCfg_adm
/-- Both pipelines' proof data, each at its region's entry contents. -/
def pdats : (p : Fin 2) → (c : Dev nD) → Dat τ (Elt F) Unit ℕ (UR sig nD τ) ℕ (Pipeline.pin (pcfgs (F := F)) admH p) c
  | ⟨0, _⟩ => fun c => dat0 (E0 m ρ) c
  | ⟨1, _⟩ => fun c => dat1 (E1 m ρ) c

/-! ## The second pipeline's arrays: one buffer read through two windows -/

/-- The two distinct buffers behind the second pipeline's three windows, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v4) ↦{fullShare} V main_v4) ∗ (((c : Thread nD τ).loc main_v5) ↦{fullShare} V main_v5)) := by
  unfold Pipeline.arrBufs; exact bigSep_eq_bigSepL_of_eq [main_v4, main_v5] (by decide) (by decide) _

/-- The second pipeline's arrays, window by window: the projected array's buffer at the left half share for window 0
    and at the right half for window 1, the result's buffer at the full share. -/
theorem arrays1_eq (c : Dev nD) (V : (c : Dev nD) → (b : Ref sig .tc) → Buf (Elt F) ((c : Thread nD τ).loc b))
    (A : (w : Fin cfg1.W) → Buf (Elt F) ((cfg1.win w).arr.view.loc (c.tc : Thread nD τ))) :
    ((dat1 V c).arrays A : sProp 𝕄)
      = iprop((((c : Thread nD τ).loc main_v4) ↦{fullShare.left} A 0) ∗ (((c : Thread nD τ).loc main_v4) ↦{fullShare.right} A 1)
          ∗ (((c : Thread nD τ).loc main_v5) ↦{fullShare} A 2)) := by
  unfold Dat.arrays
  rw [bigSep_W1, (arr_whole1 0).set_eq_univ, (arr_whole1 2).set_eq_univ]
  rfl

/-- ENTRY. The two distinct buffers behind the second pipeline's three windows, each whole at the full share, make the
    proof data's arrays: the projected array's buffer split in two halves, one per input window; the result's whole. -/
theorem arrays_in1 (c : Dev nD) :
    (Pipeline.arrBufs (Ix := Unit) (Name := ℕ) (U := UR sig nD τ) (Lvl := ℕ) spec1 c (E1 m ρ c) : sProp 𝕄)
      ⊢ (dat1 (E1 m ρ) c).arrays ((dat1 (E1 m ρ) c).arrAt · 0) := by
  rw [arrBufs1_eq, arrays1_eq]
  iintro ⟨H4, H5⟩
  ihave H4' := (pointsTo_share (PosShare.mem_left_op_right fullShare)).1 $$ H4
  icases H4' with ⟨Hl, Hr⟩
  isplitl [Hl]; · iexact Hl
  isplitl [Hr]; · iexact Hr
  iexact H5

/-- EXIT. The arrays after the last point — each input window's half of the projected array as entered, the result at
    what the write-backs left — are the two buffers whole at the exit contents. -/
theorem arrays_out1 (c : Dev nD) :
    (dat1 (E1 m ρ) c).arrays ((dat1 (E1 m ρ) c).arrAt · cfg1.N)
      ⊢ (Pipeline.arrBufs (Ix := Unit) (Name := ℕ) (U := UR sig nD τ) (Lvl := ℕ) spec1 c (X1 m ρ c) : sProp 𝕄) := by
  rw [arrBufs1_eq, arrays1_eq]
  beta_reduce
  rw [(dat1 (E1 m ρ) c).arrAt_in 0 rfl cfg1.N, (dat1 (E1 m ρ) c).arrAt_in 1 rfl cfg1.N]
  rw [show X1 m ρ c main_v4 = E1 m ρ c main_v4 from W4_of_ne m ρ c main_v4 (by decide),
    show X1 m ρ c main_v5 = (dat1 (E1 m ρ) c).arrAt 2 cfg1.N from W4_v5 m ρ c]
  iintro ⟨Hl, Hr, H5⟩
  isplitl [Hl Hr]
  · iapply (pointsTo_share (PosShare.mem_left_op_right fullShare)).2
    isplitl [Hl]; · iexact Hl
    iexact Hr
  iexact H5

/-- The unscoped buffers that are no array of the second pipeline hold at its exit what they held at its entry. -/
theorem rest_eq1 (c : Dev nD) :
    (Pipeline.unscopedRest (Ix := Unit) (Name := ℕ) (U := UR sig nD τ) (Lvl := ℕ) spec1 c (E1 m ρ c) : sProp 𝕄)
      = Pipeline.unscopedRest spec1 c (X1 m ρ c) := by
  rw [unscopedRest1_eq, unscopedRest1_eq]
  rw [show X1 m ρ c main_arg0 = E1 m ρ c main_arg0 from W4_of_ne m ρ c main_arg0 (by decide),
    show X1 m ρ c main_arg1 = E1 m ρ c main_arg1 from W4_of_ne m ρ c main_arg1 (by decide),
    show X1 m ρ c main_v0 = E1 m ρ c main_v0 from W4_of_ne m ρ c main_v0 (by decide),
    show X1 m ρ c main_v1 = E1 m ρ c main_v1 from W4_of_ne m ρ c main_v1 (by decide),
    show X1 m ρ c main_v2 = E1 m ρ c main_v2 from W4_of_ne m ρ c main_v2 (by decide),
    show X1 m ρ c main_v3 = E1 m ρ c main_v3 from W4_of_ne m ρ c main_v3 (by decide),
    show X1 m ρ c main_v6 = E1 m ρ c main_v6 from W4_of_ne m ρ c main_v6 (by decide)]

end Cert.KernelIdeal.Hand

end
-- ==== Proof.IdealRun.lean ====
/-
  The program's run. Its five segments — the permutation of T's columns on the host, the matrix product, the reshape,
  the pairwise-distance kernel, the concatenation — are chained over one thread state: every unscoped buffer of the
  core held at the boundary's contents, the generator register at some state, nothing owed. Each pallas_call enters
  as a region record: its arrays are split out of the unscoped buffers at entry and put back at what the pipeline
  leaves at exit (for the second, whose two input windows read one array, through the halves of that array's buffer).
  Every weakly fair execution then terminates with every unscoped buffer at the last boundary's contents.
-/
import proofs.«106312_j48043504173685_2_alg».proof.Proof.IdealRunData

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything: no level is assigned. -/
abbrev LH : GSem nD τ sig → Finset Unit := fun _ => ∅
abbrev lvH : GSem nD τ sig → Unit → ℕ := fun _ _ => 0
/-- What rides beside the buffers through every segment: the generator register at some state, and nothing owed. -/
abbrev RH (c : Dev nD) : sProp 𝕄 := iprop((∃ r, prngReg c r) ∗ ∃ W, owes (c : Thread nD τ) (0 : CellTallies nD τ sig Unit) W)
/-- A host stretch as a segment over the unscoped references, from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

/-- No host operation of the program allocates a buffer. -/
theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at the last boundary's contents, the generator register at some state. -/
abbrev TN (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The matrix product's region: entered from every unscoped buffer at the first boundary's contents, left at the
    second's. Its three arrays are distinct buffers. -/
def reg0 : Pipeline.RegionSeg (pcfgs (F := F)) admH (pdats m ρ) () defs₀ 𝒱₀ LH lvH 0 where
  win := launch0.win.to₀
  block_pos := launch0.block_pos
  stage_whole := launch0.stage_whole
  K := PEmpty
  osem k := k.elim
  ho := Pipeline.OwnSemFacts.none _
  hbody c := (body_obligation0 (E0 m ρ) c).loose
  hwaits := Pipeline.hwaits_of_owed_zero _ _ _ _ LH lvH 0 fun _ _ => rfl
  pre c := iprop(StableHlo.held (c : Thread nD τ) (Pipeline.ucRefs τ sig) (W1 m ρ c) ∗ RH c)
  post c := iprop(StableHlo.held (c : Thread nD τ) (Pipeline.ucRefs τ sig) (W2 m ρ c) ∗ RH c)
  X c := iprop(∃ r, prngReg c r)
  Y c := iprop(∃ r, prngReg c r)
  Z c := Pipeline.unscopedRest (Ix := Unit) (Name := ℕ) (U := UR sig nD τ) (Lvl := ℕ) spec0 c (E0 m ρ c)
  hentry c := by
    rw [Pipeline.ownSems0_none]
    have hsplit := Pipeline.arrays_of_unscopedBufs (p := 0) (pcfgs (F := F)) admH (pdats m ρ) launch0.win launch0.arr_whole c
      ((pdats m ρ 0 c).share_full fun _ => rfl) (E0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m ρ) ((pdats m ρ 0 c).share_full fun _ => rfl)
      (E0 m ρ c) (X0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pairwise-distance kernel's region: entered from every unscoped buffer at the third boundary's contents, left at
    the fourth's. Its two input windows read one array: the buffers behind its arrays are split out of the unscoped
    buffers, the shared one halved between the two windows, and joined again at exit. -/
def reg1 : Pipeline.RegionSeg (pcfgs (F := F)) admH (pdats m ρ) () defs₀ 𝒱₀ LH lvH 1 where
  win := winFacts₀1
  block_pos := block_pos1
  stage_whole := stage_whole1
  K := PEmpty
  osem k := k.elim
  ho := Pipeline.OwnSemFacts.none _
  hbody c := (body_obligation1 (E1 m ρ) c).loose
  hwaits := Pipeline.hwaits_of_owed_zero _ _ _ _ LH lvH 1 fun _ _ => rfl
  pre c := iprop(StableHlo.held (c : Thread nD τ) (Pipeline.ucRefs τ sig) (W3 m ρ c) ∗ RH c)
  post c := iprop(StableHlo.held (c : Thread nD τ) (Pipeline.ucRefs τ sig) (W4 m ρ c) ∗ RH c)
  X c := iprop(∃ r, prngReg c r)
  Y c := iprop(∃ r, prngReg c r)
  Z c := Pipeline.unscopedRest (Ix := Unit) (Name := ℕ) (U := UR sig nD τ) (Lvl := ℕ) spec1 c (E1 m ρ c)
  hentry c := by
    rw [Pipeline.ownSems0_none]
    have hsplit : (unscopedBufs (Ix := Unit) (Name := ℕ) (U := UR sig nD τ) (Lvl := ℕ) c (E1 m ρ c) : sProp 𝕄)
        ⊢ iprop((pdats m ρ 1 c).arrays ((pdats m ρ 1 c).arrAt · 0) ∗ Pipeline.unscopedRest spec1 c (E1 m ρ c)) := by
      rw [Pipeline.unscopedBufs_split₀ (Pipeline.pin (pcfgs (F := F)) admH) 1 winFacts₀1.arr_unscoped c (E1 m ρ c)]
      exact BIClass.sep_mono (arrays_in1 m ρ c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (E1 m ρ) c).trans ?_
    unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N) ∗ Pipeline.unscopedRest spec1 c (E1 m ρ c))
        ⊢ (unscopedBufs (Ix := Unit) (Name := ℕ) (U := UR sig nD τ) (Lvl := ℕ) c (X1 m ρ c) : sProp 𝕄) := by
      rw [Pipeline.unscopedBufs_split₀ (Pipeline.pin (pcfgs (F := F)) admH) 1 winFacts₀1.arr_unscoped c (X1 m ρ c)]
      exact BIClass.sep_mono (arrays_out1 m ρ c) (Entails.of_eq (rest_eq1 m ρ c))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- The program's five segments in order. -/
abbrev segsH : List (Pipeline.Seg (pcfgs (F := F)) admH (pdats m ρ) () defs₀ 𝒱₀ LH lvH) :=
  [ .host (hseg hostOps0 hostOps0_sub fresh0 (W0 m ρ)),
    .region (reg0 m ρ),
    .host (hseg hostOps1 hostOps1_sub fresh1 (W2 m ρ)),
    .region (reg1 m ρ),
    .host (hseg hostOps2 hostOps2_sub fresh2 (W4 m ρ)) ]
/-- @main is the run of the segments. -/
theorem main_run (c : Dev nD) : main (F := F) c = Pipeline.Seg.run (segsH m ρ) := (main_chain c).trans (by chain_rfl)

set_option backward.isDefEq.respectTransparency.types false in
/-- THE RUN, at any F: from any memory with zero counters every weakly fair execution of @main on the TensorCores
    terminates, nothing faulting, and every final state holds each unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) admH (pdats m ρ) () cellOf_inj emb₁ defs₀ 𝒱₀ LH lvH m ρ main (segsH m ρ)
    (fun c Q => by rw [main_run m ρ c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ RH c)) (Tₙ := TN m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ RH c)
        ⊢ iprop(TN m ρ c ∗ ∃ W, owes (c.tc : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach LH lvH fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.IdealRunArgs.lean ====
/-
  The two argument arrays reach the end as launched: no host operation writes an argument, the matrix product's region
  reads the first through an input window (an input's array is never written) and does not touch the second, and the
  pairwise-distance kernel's region changes its result array only. So the last boundary's contents at an argument walk
  back, segment by segment, to the launch memory.
-/
import proofs.«106312_j48043504173685_2_alg».proof.Proof.IdealRunData
import proofs.«106312_j48043504173685_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W5_main_arg0 (c : Dev nD) : W5 m ρ c main_arg0 = m ((c : Thread nD τ).loc main_arg0) :=
  calc W5 m ρ c main_arg0
    _ = W4 m ρ c main_arg0 := StableHlo.after_of_writes_sub hostOps2 _ hostOps2_writes (by decide)
    _ = W3 m ρ c main_arg0 := W4_of_ne m ρ c main_arg0 (by decide)
    _ = W2 m ρ c main_arg0 := StableHlo.after_of_writes_sub hostOps1 _ hostOps1_writes (by decide)
    _ = W1 m ρ c main_arg0 := (W2_arr m ρ c 0).trans (((dat0 (E0 m ρ) c).arrAt_in 0 rfl _).trans (A_eq0 (E0 m ρ) c 0))
    _ = W0 m ρ c main_arg0 := StableHlo.after_of_writes_sub hostOps0 _ hostOps0_writes (by decide)
    _ = m ((c : Thread nD τ).loc main_arg0) := rfl

theorem W5_main_arg1 (c : Dev nD) : W5 m ρ c main_arg1 = m ((c : Thread nD τ).loc main_arg1) :=
  calc W5 m ρ c main_arg1
    _ = W4 m ρ c main_arg1 := StableHlo.after_of_writes_sub hostOps2 _ hostOps2_writes (by decide)
    _ = W3 m ρ c main_arg1 := W4_of_ne m ρ c main_arg1 (by decide)
    _ = W2 m ρ c main_arg1 := StableHlo.after_of_writes_sub hostOps1 _ hostOps1_writes (by decide)
    _ = W1 m ρ c main_arg1 := W2_of_ne m ρ c main_arg1 (by decide)
    _ = W0 m ρ c main_arg1 := StableHlo.after_of_writes_sub hostOps0 _ hostOps0_writes (by decide)
    _ = m ((c : Thread nD τ).loc main_arg1) := rfl

end Cert.KernelIdeal.Hand

end
-- ==== Proof.IdealPieces1.lean ====
/-
  What the body of the pairwise-distance kernel leaves, as one pure function of the two input blocks and of what the
  running sum held. The body reads the 32 slices t of the first block (16 rows p, 128 lanes o) and of the second block
  (32 rows q), forms for each slice the [16, 32, 128] array of |first[p, t, o] - second[q, t, o]|, adds the 32 arrays one
  after another onto a zero array, takes exp of zero minus the sum, sums over the 32 rows q, and adds the result to the
  running sum. At the first point of a row of four the running sum entering is the zero array just stored; at the last
  point the output block is the new running sum less 1.0.
-/
import proofs.«106312_j48043504173685_2_alg».proof.Proof.IdealReg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The two zero offsets of a whole [16, 128] block. -/
theorem hz2 : (![0, 0] : Fin 2 → Nat) = fun _ => 0 := funext fun a => by fin_cases a <;> rfl

/-- Slice t of a block lies inside it. -/
theorem inb_slice0 (t : Fin 32) : ∀ a, (![0, t.val, 0] : Fin 3 → Nat) a + S16x1x128.size a ≤ S16x32x128.size a := by
  have := t.isLt
  intro a; fin_cases a <;> simp <;> omega
theorem inb_slice1 (t : Fin 32) : ∀ a, (![0, t.val, 0] : Fin 3 → Nat) a + S32x1x128.size a ≤ S32x32x128.size a := by
  have := t.isLt
  intro a; fin_cases a <;> simp <;> omega

/-- Slice t of the first block: rows p, lanes o, at the inner coordinate t. -/
def slice0 (x0 : Vec F S16x32x128 .f32) (t : Fin 32) : Vec F S16x1x128 .f32 :=
  View.ld x0 (Rect.unit ![0, t.val, 0] S16x1x128.size (inb_slice0 t))
/-- Slice t of the second block: rows q, lanes o, at the inner coordinate t. -/
def slice1 (x1 : Vec F S32x32x128 .f32) (t : Fin 32) : Vec F S32x1x128 .f32 :=
  View.ld x1 (Rect.unit ![0, t.val, 0] S32x1x128.size (inb_slice1 t))

/-- The [16, 32, 128] array of |a[p, o] - b[q, o]| of a slice a of the first block and a slice b of the second. -/
def absDiff (a : Vec F S16x1x128 .f32) (b : Vec F S32x1x128 .f32) : FVec F S16x32x128 .f32 :=
  absf (subf
    (broadcastTo S16x32x128 (shapeCast S16x1x128 (shapeCast S16x128 a shapeCasts_S16x1x128_S16x128) shapeCasts_S16x128_S16x1x128) broadcasts_S16x1x128_S16x32x128)
    (broadcastTo S16x32x128 (shapeCast S1x32x128 (shapeCast S32x128 b shapeCasts_S32x1x128_S32x128) shapeCasts_S32x128_S1x32x128) broadcasts_S1x32x128_S16x32x128))

/-- The first n slices' arrays added one after another onto the zero array. -/
def distUpTo (x0 : Vec F S16x32x128 .f32) (x1 : Vec F S32x32x128 .f32) : (n : Nat) → n ≤ 32 → FVec F S16x32x128 .f32
  | 0, _ => broadcast S16x32x128 (Scalar.ofBits .f32 0x00000000#32)
  | n + 1, h => addf (distUpTo x0 x1 n (Nat.le_of_succ_le h)) (absDiff (slice0 x0 ⟨n, h⟩) (slice1 x1 ⟨n, h⟩))

/-- One point's step: the running sum s plus, summed over the 32 rows q of the second block, exp of zero minus the
    summed absolute differences. -/
def accStep (x0 : Vec F S16x32x128 .f32) (x1 : Vec F S32x32x128 .f32) (s : Vec F S16x128 .f32) : Vec F S16x128 .f32 :=
  k1_pay1 (distUpTo x0 x1 31 (by decide)) (slice0 x0 ⟨31, by decide⟩) (slice1 x1 ⟨31, by decide⟩) s

set_option maxHeartbeats 4000000 in
/-- The first point of a row of four leaves in the running sum the step over the zero array it has just stored. -/
theorem sout1_A_eq (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : cond1_0 i) (hc1 : ¬cond1_1 i)
    (x0 : Vec F S16x32x128 .f32) (x1 : Vec F S32x32x128 .f32) :
    sout1_A c i arg2 harg2 arg3 harg3 arg4 harg4 arg5 harg5 hc0 hc1 x0 x1 = accStep x0 x1 (k1_pay3 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero hz2, View.readCov_unit_zero (S := S16x128) _ hz2]
  simp only [View.readAt_eq_ld, harg2.read_unread, harg3.read_unread, harg5.read_unread, View.ld_unit_zero (S := S16x128) hz2]
  rfl

set_option maxHeartbeats 4000000 in
/-- A middle point leaves in the running sum the step over what it held. -/
theorem sout1_B_eq (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : ¬cond1_1 i)
    (x0 : Vec F S16x32x128 .f32) (x1 : Vec F S32x32x128 .f32) (xs0 : Vec F S16x128 .f32) :
    sout1_B c i arg2 harg2 arg3 harg3 arg4 harg4 arg5 harg5 hc0 hc1 x0 x1 xs0 = accStep x0 x1 xs0 := by
  unfold sout1_B
  rw [View.read_writes_eq_canon _ _ _ (scover1_B c i arg2 harg2 arg3 harg3 arg4 harg4 arg5 harg5 hc0 hc1 x0 x1 xs0)]
  unfold kernelRun1_B
  dsimp only
  sl_unfold_words
  rw [View.canon_unit_zero hz2]
  simp only [View.readAt_eq_ld, harg2.read_unread, harg3.read_unread, harg5.read_unread, View.ld_unit_zero (S := S16x128) hz2]
  rfl

set_option maxHeartbeats 4000000 in
/-- The last point of a row of four leaves in the running sum the step over what it held. -/
theorem sout1_C_eq (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) :
    sout1_C c i arg2 harg2 arg3 harg3 arg4 harg4 arg5 harg5 hc0 hc1 x0 x1 xs0 = accStep x0 x1 xs0 := by
  unfold sout1_C
  rw [View.read_writes_eq_canon _ _ _ (scover1_C c i arg2 harg2 arg3 harg3 arg4 harg4 arg5 harg5 hc0 hc1 x0 x1 xs0)]
  unfold kernelRun1_C
  dsimp only
  sl_unfold_words
  rw [View.canon_unit_zero hz2]
  simp only [View.readAt_eq_ld, harg2.read_unread, harg3.read_unread, harg5.read_unread, View.ld_unit_zero (S := S16x128) hz2]
  rfl

set_option maxHeartbeats 4000000 in
/-- The last point of a row of four leaves in the output block the new running sum less 1.0. -/
theorem out1_C_eq (c : Dev nD) (i : grid1.Coords) (arg2 : Memref sig .tc .vmem S16x32x128 .f32) (harg2 : arg2.IsWhole) (arg3 : Memref sig .tc .vmem S32x32x128 .f32) (harg3 : arg3.IsWhole) (arg4 : Memref sig .tc .vmem S16x128 .f32) (harg4 : arg4.IsWhole) (arg5 : Memref sig .tc .vmem S16x128 .f32) (harg5 : arg5.IsWhole) (hc0 : ¬cond1_0 i) (hc1 : cond1_1 i)
    (x0 : Vec F S16x32x128 .f32) (x1 : Vec F S32x32x128 .f32) (xs0 : Vec F S16x128 .f32) :
    out1_C c i arg2 harg2 arg3 harg3 arg4 harg4 arg5 harg5 hc0 hc1 x0 x1 xs0 = k1_pay2 (accStep x0 x1 xs0) := by
  unfold out1_C
  rw [View.read_writes_eq_canon _ _ _ (cover1_C c i arg2 harg2 arg3 harg3 arg4 harg4 arg5 harg5 hc0 hc1 x0 x1 xs0)]
  unfold kernelRun1_C
  dsimp only
  sl_unfold_words
  rw [View.canon_unit_zero hz2, View.readCov_unit_zero (S := S16x128) _ hz2]
  simp only [View.readAt_eq_ld, harg2.read_unread, harg3.read_unread, harg5.read_unread, View.ld_unit_zero (S := S16x128) hz2]
  rfl

end Cert.KernelIdeal.Hand

end
-- ==== Proof.IdealSteps1.lean ====
/-
  The running sum and the output block along the 32 points, case by case: at the first point of a row of four the
  running sum is the step over the zero array; at a later point it is the step over what the point before left; at the
  last point the output block is the new running sum less 1.0.
-/
import proofs.«106312_j48043504173685_2_alg».proof.Proof.IdealPieces1

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat Cfg Window)

section Region1c
variable {F : FTy → Type} [FloatOps F]
variable (V : (c : Dev nD) → (b : Ref sig .tc) → Buf (Elt F) ((c : Thread nD τ).loc b))

/-- At the first point of a row of four the running sum is left at the step over the zero array. -/
theorem scr_A (c : Dev nD) (n : Nat) (hn : n < cfg1.N) (h0 : n % 4 = 0) :
    (outsAt1 V c n hn).2 = accStep (iblk1 V c 0 ⟨n, hn⟩) (iblk1 V c 1 ⟨n, hn⟩) (k1_pay3 (F := F)) := by
  have h1 : ¬n % 4 = 3 := by omega
  have e := outsAt1_A V c ⟨n, hn⟩ h0 h1
  have e2 : (outsAt1 V c n hn).2 = _ := congrArg Prod.snd e
  exact e2.trans (sout1_A_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) ((hcond1_0 ⟨n, hn⟩).mpr h0) (fun h => h1 ((hcond1_1 ⟨n, hn⟩).mp h)) (iblk1 V c 0 ⟨n, hn⟩) (iblk1 V c 1 ⟨n, hn⟩))

/-- At a later point of a row of four the running sum is left at the step over what the point before left. -/
theorem scr_BC (c : Dev nD) (n : Nat) (hn : n + 1 < cfg1.N) (h0 : ¬(n + 1) % 4 = 0) :
    (outsAt1 V c (n + 1) hn).2 = accStep (iblk1 V c 0 ⟨n + 1, hn⟩) (iblk1 V c 1 ⟨n + 1, hn⟩) (outsAt1 V c n (Nat.lt_of_succ_lt hn)).2 := by
  by_cases h1 : (n + 1) % 4 = 3
  · have e := outsAt1_C V c ⟨n + 1, hn⟩ h0 h1
    have e2 : (outsAt1 V c (n + 1) hn).2 = _ := congrArg Prod.snd e
    exact e2.trans (sout1_C_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 V c n (Nat.lt_of_succ_lt hn)).2)
  · have e := outsAt1_B V c ⟨n + 1, hn⟩ h0 h1
    have e2 : (outsAt1 V c (n + 1) hn).2 = _ := congrArg Prod.snd e
    exact e2.trans (sout1_B_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 V c n (Nat.lt_of_succ_lt hn)).2)

/-- At the last point of a row of four the output block is left at the new running sum less 1.0. -/
theorem out_C (c : Dev nD) (n : Nat) (hn : n < cfg1.N) (h1 : n % 4 = 3) :
    (outsAt1 V c n hn).1 = k1_pay2 (outsAt1 V c n hn).2 := by
  have h0 : ¬n % 4 = 0 := by omega
  have e := outsAt1_C V c ⟨n, hn⟩ h0 h1
  have e1 : (outsAt1 V c n hn).1 = _ := congrArg Prod.fst e
  have e2 : (outsAt1 V c n hn).2 = _ := congrArg Prod.snd e
  exact e1.trans ((out1_C_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) ((hcond1_1 ⟨n, hn⟩).mpr h1) (iblk1 V c 0 ⟨n, hn⟩) (iblk1 V c 1 ⟨n, hn⟩) (outsAt1 V c (n - 1) (Nat.lt_of_le_of_lt (Nat.sub_le _ _) hn)).2).trans
    (congrArg k1_pay2 ((sout1_C_eq c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) ((hcond1_1 ⟨n, hn⟩).mpr h1) (iblk1 V c 0 ⟨n, hn⟩) (iblk1 V c 1 ⟨n, hn⟩) (outsAt1 V c (n - 1) (Nat.lt_of_le_of_lt (Nat.sub_le _ _) hn)).2).symm.trans e2.symm)))

end Region1c

end Cert.KernelIdeal.Hand

end
-- ==== Proof.IdealBlocks1.lean ====
import proofs.«106312_j48043504173685_2_alg».proof.Proof.IdealReg1
import Idealize.ShloMosaic.Lib.ValueIdx
import Idealize.ShloMosaic.Lib.Pipeline.Value

/-! # The second region's blocks

The second region runs on a grid of 32 points t = 4 i + j.  Both its input windows read ONE array, of shape
[128, 32, 128]: the first the block of 16 rows 16 i ... 16 i + 15, the second the block of 32 rows
32 j ... 32 j + 31.  Its output window is the block of 16 rows 16 i ... 16 i + 15 of the [128, 128] result,
written back at j = 3 only; the eight blocks written tile the 128 rows.  This module reads the input blocks as
rows of the array and reduces "what the array ends holding" to "what each written block holds". -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Region1
-- the core's buffer contents when the region is entered
variable (V : (c : Dev nD) → (b : Ref sig .tc) → Buf (Elt Ideal) ((c : Thread nD τ).loc b))

/-- The array both input windows read, with its entries as extended reals. -/
abbrev M1 (c : Dev nD) : S128x32x128.Idx → EReal := V c main_v4

/-- The printed index maps over the 32 grid points t = 4 i + j: the first input's block is block (i, 0, 0), the
    second input's block (j, 0, 0), the output's block (i, 0). -/
theorem idx_facts1 : ∀ t : Fin cfg1.N,
    win1_0.index t (0 : Fin 3) = t.val / 4 ∧ win1_0.index t (1 : Fin 3) = 0 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = t.val / 4 ∧ win1_2.index t (1 : Fin 2) = 0 :=
  (by decide +kernel : ∀ t : Fin grid1.N, _)

theorem lt_N1 (t : Fin cfg1.N) : t.val < 32 := lt_of_lt_of_eq t.isLt N_1

/-- Row p of the first input's block at point t is row 16 (t / 4) + p of the array. -/
theorem iblk1_0_apply (c : Dev nD) (t : Fin cfg1.N) (p : Fin 16) (u : Fin 32) (o : Fin 128) :
    iblk1 V c 0 t (ix3 p u o) = M1 V c (ix3 (⟨16 * (t.val / 4) + p.val, by have := lt_N1 t; omega⟩ : Fin 128) u o) := by
  obtain ⟨e0, e1, e2, -, -, -, -, -⟩ := idx_facts1 t
  show V c main_v4 (((cfg1.win 0).blk t).view.emb (ix3 p u o)) = _
  refine congrArg (V c main_v4) (funext fun a => Fin.ext ?_)
  match a with
  | ⟨0, _⟩ => show win1_0.index t (0 : Fin 3) * 16 + 1 * p.val = 16 * (t.val / 4) + p.val; omega
  | ⟨1, _⟩ => show win1_0.index t (1 : Fin 3) * 32 + 1 * u.val = u.val; omega
  | ⟨2, _⟩ => show win1_0.index t (2 : Fin 3) * 128 + 1 * o.val = o.val; omega

/-- Row q of the second input's block at point t is row 32 (t % 4) + q of the array. -/
theorem iblk1_1_apply (c : Dev nD) (t : Fin cfg1.N) (q : Fin 32) (u : Fin 32) (o : Fin 128) :
    iblk1 V c 1 t (ix3 q u o) = M1 V c (ix3 (⟨32 * (t.val % 4) + q.val, by omega⟩ : Fin 128) u o) := by
  obtain ⟨-, -, -, e0, e1, e2, -, -⟩ := idx_facts1 t
  show V c main_v4 (((cfg1.win 1).blk t).view.emb (ix3 q u o)) = _
  refine congrArg (V c main_v4) (funext fun a => Fin.ext ?_)
  match a with
  | ⟨0, _⟩ => show win1_1.index t (0 : Fin 3) * 32 + 1 * q.val = 32 * (t.val % 4) + q.val; omega
  | ⟨1, _⟩ => show win1_1.index t (1 : Fin 3) * 32 + 1 * u.val = u.val; omega
  | ⟨2, _⟩ => show win1_1.index t (2 : Fin 3) * 128 + 1 * o.val = o.val; omega

/-- An index of the result array is in point t's block iff each coordinate is in the block's range on its axis. -/
theorem mem_blk1 (t : Fin cfg1.N) (i : S128x128.Idx) :
    i ∈ ((cfg1.win 2).blk t).view.set ↔ ∀ a : Fin 2, win1_2.index t a * S16x128.size a ≤ (i a).val ∧ (i a).val < win1_2.index t a * S16x128.size a + S16x128.size a := by
  show i ∈ ((View.whole main_v5).slice (win1_2.rect t)).set ↔ _
  rw [View.set_slice_whole, Rect.mem_set_unit]
  exact Iff.rfl

/-- Row r of an index in point t's block, seen from inside the block: the block's row is r - 16 (t / 4). -/
theorem emb_blk1 (t : Fin cfg1.N) (p : Fin 16) (o : Fin 128) :
    ((cfg1.win 2).blk t).view.emb (ix2 p o) = ix2 (⟨16 * (t.val / 4) + p.val, by have := lt_N1 t; omega⟩ : Fin 128) o := by
  obtain ⟨-, -, -, -, -, -, e0, e1⟩ := idx_facts1 t
  refine funext fun a => Fin.ext ?_
  match a with
  | ⟨0, _⟩ => show win1_2.index t (0 : Fin 2) * 16 + 1 * p.val = 16 * (t.val / 4) + p.val; omega
  | ⟨1, _⟩ => show win1_2.index t (1 : Fin 2) * 128 + 1 * o.val = o.val; omega

/-- Every index of the result array is in the block of a point that writes back: row r is written by point
    4 (r / 16) + 3. -/
theorem cover1 (i : S128x128.Idx) : ∃ t : Fin cfg1.N, (cfg1.win 2).flush t = true ∧ i ∈ ((cfg1.win 2).blk t).view.set := by
  have hi0 : (i 0).val < 128 := (i 0).isLt
  have hi1 : (i 1).val < 128 := (i 1).isLt
  have hN : cfg1.N = 32 := N_1
  have ht : 4 * ((i 0).val / 16) + 3 < cfg1.N := by rw [hN]; omega
  refine ⟨⟨4 * ((i 0).val / 16) + 3, ht⟩, (flush1_2 _).mpr (by show (4 * ((i 0).val / 16) + 3) % 4 = 3; omega), ?_⟩
  rw [mem_blk1]
  obtain ⟨-, -, -, -, -, -, e0, e1⟩ := idx_facts1 ⟨4 * ((i 0).val / 16) + 3, ht⟩
  intro a
  match a with
  | ⟨0, _⟩ => show win1_2.index _ (0 : Fin 2) * 16 ≤ (i 0).val ∧ (i 0).val < win1_2.index _ (0 : Fin 2) * 16 + 16; rw [e0]; show (4 * ((i 0).val / 16) + 3) / 4 * 16 ≤ (i 0).val ∧ (i 0).val < (4 * ((i 0).val / 16) + 3) / 4 * 16 + 16; omega
  | ⟨1, _⟩ => show win1_2.index _ (1 : Fin 2) * 128 ≤ (i 1).val ∧ (i 1).val < win1_2.index _ (1 : Fin 2) * 128 + 128; rw [e1]; omega

/-- THE RESULT ARRAY from its written blocks: if every point that writes back writes its block of one function `Gf` of
    the index, the array ends holding `Gf`. -/
theorem final1_of_flushed (c : Dev nD) (Gf : S128x128.Idx → EReal)
    (hfl : ∀ t : Fin cfg1.N, (cfg1.win 2).flush t = true →
      (dat1 (F := Ideal) V c).flushed 2 t = ((cfg1.win 2).blk t).view.read (Elt Ideal) Gf) :
    (dat1 (F := Ideal) V c).arrAt 2 cfg1.N = Gf :=
  (dat1 (F := Ideal) V c).arrAt_eq_of_cover 2 Gf hfl cover1

end Region1

end Cert.KernelIdeal.Hand

end
-- ==== Proof.Spec.lean ====
/-
  The result of the computation as ONE function of the two argument arrays, index by index, on the extended reals.

  With x : [128, 1024] and T : [1024, 4096], write M[b, o, t] = ∑ₖ x[b, k] · T[k, 32·o + t] for the product x · T
  seen as a [128, 128, 32] array (row-major: column 32·o + t of the product is entry (o, t)). The L¹ distance between
  samples b and b' in feature o is d[b, b', o] = ∑ₜ |M[b, o, t] − M[b', o, t]|, and the new feature o of sample b is
  (∑_{b'} exp (−d[b, b', o])) − 1: the similarity to every sample, the sample's similarity exp 0 = 1 to itself taken
  off. The result is x with these 128 features appended to each row: a [128, 1152] array.

  Conventions. The absolute value is max a (−a) and exp is the exponential of the extended reals (0 at −∞, +∞ at +∞), as
  the ideal float operations have them. The two sums start from the exact real 0 (the zero word's value), which is
  dropped here: 0 + s = s on the extended reals. The literal 1.0 stays the f32 word 0x3F800000, never evaluated.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.Spec

/-- The index sets of the two arguments and of the result. -/
abbrev XIdx : Type := (⟨2, ![128, 1024]⟩ : Shape).Idx
abbrev TIdx : Type := (⟨2, ![1024, 4096]⟩ : Shape).Idx
abbrev OutIdx : Type := (⟨2, ![128, 1152]⟩ : Shape).Idx

/-- Column 32·o + t of a 4096-wide row: entry (o, t) of the row seen as [128, 32]. -/
abbrev col (o : Fin 128) (t : Fin 32) : Fin 4096 := ⟨o.val * 32 + t.val, by omega⟩

/-- M[b, o, t]: entry (b, 32·o + t) of the product x · T. -/
def proj (x : XIdx → EReal) (T : TIdx → EReal) (b o : Fin 128) (t : Fin 32) : EReal :=
  ∑ k : Fin 1024, x (ix2 b k) * T (ix2 k (col o t))

/-- d[b, b', o]: the L¹ distance, over the 32 inner coordinates, between samples b and b' in feature o. -/
def dist (x : XIdx → EReal) (T : TIdx → EReal) (b b' o : Fin 128) : EReal :=
  ∑ t : Fin 32, max (proj x T b o t - proj x T b' o t) (-(proj x T b o t - proj x T b' o t))

/-- Feature o of sample b: the sum over all samples b' of exp (−d[b, b', o]), less 1.0. -/
def ob (x : XIdx → EReal) (T : TIdx → EReal) (b o : Fin 128) : EReal :=
  (∑ b' : Fin 128, Ideal.exp (-(dist x T b b' o))) - Ideal.ofBits .f32 0x3F800000#32

/-- The whole result: row b is x's row b (columns below 1024) followed by the 128 features of sample b. -/
def G (x : XIdx → EReal) (T : TIdx → EReal) : OutIdx → EReal := fun j =>
  if h : (j 1).val < 1024 then x (ix2 (⟨(j 0).val, idx2_lt0 j⟩ : Fin 128) (⟨(j 1).val, h⟩ : Fin 1024))
  else ob x T (⟨(j 0).val, idx2_lt0 j⟩ : Fin 128) (⟨(j 1).val - 1024, by have := idx2_lt1 j; omega⟩ : Fin 128)

/-- The result at a column below 1024 is x there. -/
theorem G_left (x : XIdx → EReal) (T : TIdx → EReal) (b : Fin 128) (c : Fin 1152) (h : c.val < 1024) :
    G x T (ix2 b c) = x (ix2 b (⟨c.val, h⟩ : Fin 1024)) := by
  unfold G
  rw [dif_pos (show ((ix2 b c : OutIdx) 1).val < 1024 from h)]

/-- The result at column 1024 + o is feature o. -/
theorem G_right (x : XIdx → EReal) (T : TIdx → EReal) (b : Fin 128) (c : Fin 1152) (o : Fin 128) (h : c.val = 1024 + o.val) :
    G x T (ix2 b c) = ob x T b o := by
  unfold G
  rw [dif_neg (show ¬ ((ix2 b c : OutIdx) 1).val < 1024 from by show ¬ c.val < 1024; omega)]
  congr 1
  exact Fin.ext (by show c.val - 1024 = o.val; omega)

end Cert.Spec

end
-- ==== Proof.IdealValue1.lean ====
/-
  The value of the pairwise-distance kernel on the extended reals.

  One point's step, read at row p and lane o of the running sum: what the running sum held there plus, summed over the
  32 rows q of the second block, exp of minus the L¹ distance over the 32 inner coordinates t between row p of the first
  block and row q of the second, |first[p, t, o] - second[q, t, o]| summed over t. The kernel adds the 32 slices one after
  another onto a zero array and subtracts the sum from zero before the exponential; on the extended reals the zero
  array is the real 0, 0 + s = s and 0 - s = -s, so the left-nested sum is the finite sum and the argument is its negative.

  Along the points t = 4 i + j the running sum at row p, lane o therefore holds, after point t, the sum over the rows
  b' < 32 (j + 1) of the projected array of exp of minus the distance between row 16 i + p and row b'; at j = 3 that is
  the sum over all 128 rows, the output block is it less 1.0, and the blocks written back at the eight points 4 i + 3
  tile the result array.
-/
import proofs.«106312_j48043504173685_2_alg».proof.Proof.IdealSteps1
import proofs.«106312_j48043504173685_2_alg».proof.Proof.IdealBlocks1
import proofs.«106312_j48043504173685_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## One step at an index -/

/-- Slice t of the first block at row p, lane o is the block at (p, t, o). -/
theorem slice0_apply (x0 : Vec Ideal S16x32x128 .f32) (t : Fin 32) (p : Fin 16) (o : Fin 128) :
    slice0 x0 t (ix3 p (0 : Fin 1) o) = x0 (ix3 p t o) := by
  unfold slice0
  show x0 _ = x0 _
  refine congrArg x0 (funext fun a => Fin.ext ?_)
  match a with
  | ⟨0, _⟩ => show 0 + 1 * p.val = p.val; omega
  | ⟨1, _⟩ => show t.val + 1 * 0 = t.val; omega
  | ⟨2, _⟩ => show 0 + 1 * o.val = o.val; omega

/-- Slice t of the second block at row q, lane o is the block at (q, t, o). -/
theorem slice1_apply (x1 : Vec Ideal S32x32x128 .f32) (t : Fin 32) (q : Fin 32) (o : Fin 128) :
    slice1 x1 t (ix3 q (0 : Fin 1) o) = x1 (ix3 q t o) := by
  unfold slice1
  show x1 _ = x1 _
  refine congrArg x1 (funext fun a => Fin.ext ?_)
  match a with
  | ⟨0, _⟩ => show 0 + 1 * q.val = q.val; omega
  | ⟨1, _⟩ => show t.val + 1 * 0 = t.val; omega
  | ⟨2, _⟩ => show 0 + 1 * o.val = o.val; omega

/-- The array of absolute differences of two slices at (p, q, o): the first slice is read at row p, the second at row q,
    both at lane o. -/
theorem absDiff_apply (a : Vec Ideal S16x1x128 .f32) (b : Vec Ideal S32x1x128 .f32) (p : Fin 16) (q : Fin 32) (o : Fin 128) :
    absDiff a b (ix3 p q o)
      = max (a (ix3 p (0 : Fin 1) o) - b (ix3 q (0 : Fin 1) o)) (-(a (ix3 p (0 : Fin 1) o) - b (ix3 q (0 : Fin 1) o))) := by
  have hX : broadcastTo S16x32x128 (shapeCast S16x1x128 (shapeCast S16x128 a shapeCasts_S16x1x128_S16x128) shapeCasts_S16x128_S16x1x128) broadcasts_S16x1x128_S16x32x128 (ix3 p q o)
      = a (ix3 p (0 : Fin 1) o) :=
    (broadcastTo_apply _ broadcasts_S16x1x128_S16x32x128 (ix3 p q o) (ix3 p (0 : Fin 1) o) (fun d => by
      match d with
      | ⟨0, _⟩ => show p.val = if (16 : Nat) = 1 then 0 else p.val; rw [if_neg (by decide)]
      | ⟨1, _⟩ => show 0 = if (1 : Nat) = 1 then 0 else q.val; rw [if_pos rfl]
      | ⟨2, _⟩ => show o.val = if (128 : Nat) = 1 then 0 else o.val; rw [if_neg (by decide)])).trans
    (congrFun (shapeCast_shapeCast a shapeCasts_S16x1x128_S16x128 shapeCasts_S16x128_S16x1x128) _)
  have hY : broadcastTo S16x32x128 (shapeCast S1x32x128 (shapeCast S32x128 b shapeCasts_S32x1x128_S32x128) shapeCasts_S32x128_S1x32x128) broadcasts_S1x32x128_S16x32x128 (ix3 p q o)
      = b (ix3 q (0 : Fin 1) o) :=
    (broadcastTo_apply _ broadcasts_S1x32x128_S16x32x128 (ix3 p q o) (ix3 (0 : Fin 1) q o) (fun d => by
      match d with
      | ⟨0, _⟩ => show 0 = if (1 : Nat) = 1 then 0 else p.val; rw [if_pos rfl]
      | ⟨1, _⟩ => show q.val = if (32 : Nat) = 1 then 0 else q.val; rw [if_neg (by decide)]
      | ⟨2, _⟩ => show o.val = if (128 : Nat) = 1 then 0 else o.val; rw [if_neg (by decide)])).trans
    ((shapeCast_apply _ shapeCasts_S32x128_S1x32x128 (ix3 (0 : Fin 1) q o) (ix2 q o) (by
        rewrite [Shape.rowMajor_val_two, Shape.rowMajor_val_three]
        show q.val * 128 + o.val = (0 * 32 + q.val) * 128 + o.val; omega)).trans
     (shapeCast_apply b shapeCasts_S32x1x128_S32x128 (ix2 q o) (ix3 q (0 : Fin 1) o) (by
        rewrite [Shape.rowMajor_val_two, Shape.rowMajor_val_three]
        show (q.val * 1 + 0) * 128 + o.val = q.val * 128 + o.val; omega)))
  unfold absDiff
  show max (_ - _) (-(_ - _)) = _
  rw [hX, hY]

/-- The summed absolute differences of the first n slices at (p, q, o): the finite sum over those slices. -/
theorem distUpTo_apply (x0 : Vec Ideal S16x32x128 .f32) (x1 : Vec Ideal S32x32x128 .f32) (p : Fin 16) (q : Fin 32) (o : Fin 128) :
    ∀ (n : Nat) (h : n ≤ 32), distUpTo x0 x1 n h (ix3 p q o)
      = ∑ t : Fin n, max (x0 (ix3 p (Fin.castLE h t) o) - x1 (ix3 q (Fin.castLE h t) o)) (-(x0 (ix3 p (Fin.castLE h t) o) - x1 (ix3 q (Fin.castLE h t) o)))
  | 0, _ => by
    show Ideal.ofBits .f32 0x00000000#32 = _
    rw [Ideal.ofBits_zero_f32]; rfl
  | n + 1, h => by
    show distUpTo x0 x1 n (Nat.le_of_succ_le h) (ix3 p q o) + absDiff (slice0 x0 ⟨n, h⟩) (slice1 x1 ⟨n, h⟩) (ix3 p q o) = _
    rw [distUpTo_apply x0 x1 p q o n (Nat.le_of_succ_le h), absDiff_apply, slice0_apply, slice1_apply, Fin.sum_univ_castSucc]
    rfl

/-- The lane sum of a [16, 32, 128] array over its middle axis, at (p, o): the sum over the 32 rows q. -/
theorem rows_sum (src : FVec Ideal S16x32x128 .f32) (hφ : FKind.Formats .f32) (hacc : (0x00000000#32 : BitVec 32) = FKind.add.neutral .f32 hφ)
    (p : Fin 16) (o : Fin 128) :
    multiReduction .add [1] S16x128 src 0x00000000#32 reduces_S16x32x128_S16x128 hφ hacc (ix2 p o) = ∑ q : Fin 32, src (ix3 p q o) := by
  refine (Ideal.multiReduction_add_single src _ reduces_S16x32x128_S16x128 hφ hacc (ix2 p o)).trans ?_
  refine Finset.sum_congr rfl fun q _ => congrArg src (funext fun a => Fin.ext ?_)
  match a with
  | ⟨0, _⟩ => rfl
  | ⟨1, _⟩ => rfl
  | ⟨2, _⟩ => rfl

/-- ONE STEP AT AN INDEX: the running sum there plus the sum over the 32 rows q of exp of minus the L¹ distance over
    t between row p of the first block and row q of the second, at lane o. -/
theorem accStep_apply (x0 : Vec Ideal S16x32x128 .f32) (x1 : Vec Ideal S32x32x128 .f32) (s : Vec Ideal S16x128 .f32) (p : Fin 16) (o : Fin 128) :
    accStep x0 x1 s (ix2 p o)
      = s (ix2 p o) + ∑ q : Fin 32, Ideal.exp (-(∑ t : Fin 32, max (x0 (ix3 p t o) - x1 (ix3 q t o)) (-(x0 (ix3 p t o) - x1 (ix3 q t o))))) := by
  unfold accStep k1_pay1
  refine (congrFun (shapeCast_self _ shapeCasts_S16x128_S16x128) (ix2 p o)).trans ?_
  show s (ix2 p o) + multiReduction (F := Ideal) (φ := .f32) .add [1] S16x128 _ 0x00000000#32 reduces_S16x32x128_S16x128 _ _ (ix2 p o) = _
  refine congrArg (s (ix2 p o) + ·) ?_
  refine (rows_sum _ _ _ p o).trans ?_
  refine Finset.sum_congr rfl fun q _ => ?_
  show Ideal.exp (Ideal.ofBits .f32 0x00000000#32 - distUpTo x0 x1 32 (le_refl 32) (ix3 p q o)) = _
  rw [Ideal.ofBits_zero_f32, zero_sub, distUpTo_apply x0 x1 p q o 32 (le_refl 32)]
  rfl

/-! ## What the running sum holds after each point -/

section Region1d
variable (V : (c : Dev nD) → (b : Ref sig .tc) → Buf (Elt Ideal) ((c : Thread nD τ).loc b))

/-- exp of minus the L¹ distance, over the 32 inner coordinates, between rows b and b' of a [128, 32, 128] array at lane o. -/
def simRow (A : S128x32x128.Idx → EReal) (b b' o : Fin 128) : EReal :=
  Ideal.exp (-(∑ t : Fin 32, max (A (ix3 b t o) - A (ix3 b' t o)) (-(A (ix3 b t o) - A (ix3 b' t o)))))

/-- The same with the second row a natural number: zero past the last row. -/
def simNat (A : S128x32x128.Idx → EReal) (b o : Fin 128) (n : Nat) : EReal :=
  if h : n < 128 then simRow A b ⟨n, h⟩ o else 0

/-- The result array: at row b and lane o, the sum over all rows b' of exp of minus the distance, less 1.0. -/
def outArr (A : S128x32x128.Idx → EReal) : S128x128.Idx → EReal := fun i =>
  (∑ b' : Fin 128, simRow A ⟨(i 0).val, (i 0).isLt⟩ b' ⟨(i 1).val, (i 1).isLt⟩) - Ideal.ofBits .f32 0x3F800000#32

/-- The array stored into the running sum at the first point of a row of four is zero. -/
theorem pay3_apply (p : Fin 16) (o : Fin 128) : (k1_pay3 (F := Ideal)) (ix2 p o) = 0 := by
  unfold k1_pay3
  refine (congrFun (shapeCast_self _ shapeCasts_S16x128_S16x128) (ix2 p o)).trans ?_
  show Ideal.ofBits .f32 0x00000000#32 = 0
  exact Ideal.ofBits_zero_f32

/-- The output block is the running sum less 1.0, entry by entry. -/
theorem pay2_apply (s : Vec Ideal S16x128 .f32) (p : Fin 16) (o : Fin 128) :
    k1_pay2 s (ix2 p o) = s (ix2 p o) - Ideal.ofBits .f32 0x3F800000#32 := rfl

/-- The step at point t = 4 i + j, read through the blocks: row p of the first block is row b = 16 i + p of the
    array, row q of the second block is row 32 j + q, so the step adds the 32 rows 32 j … 32 j + 31. -/
theorem step_rows (c : Dev nD) (t : Fin cfg1.N) (s : Vec Ideal S16x128 .f32) (p : Fin 16) (o : Fin 128) (b : Fin 128)
    (hb : b.val = 16 * (t.val / 4) + p.val) :
    accStep (iblk1 V c 0 t) (iblk1 V c 1 t) s (ix2 p o)
      = s (ix2 p o) + ∑ q ∈ Finset.range 32, simNat (M1 V c) b o (32 * (t.val % 4) + q) := by
  rw [accStep_apply (iblk1 V c 0 t) (iblk1 V c 1 t) s p o, Finset.sum_range]
  refine congrArg (s (ix2 p o) + ·) (Finset.sum_congr rfl fun q _ => ?_)
  have hq : 32 * (t.val % 4) + q.val < 128 := by have := q.isLt; omega
  have eb : (⟨16 * (t.val / 4) + p.val, by have := lt_N1 t; omega⟩ : Fin 128) = b := Fin.ext hb.symm
  unfold simNat
  rw [dif_pos hq]
  unfold simRow
  refine congrArg Ideal.exp (congrArg Neg.neg (Finset.sum_congr rfl fun u _ => ?_))
  rw [iblk1_0_apply V c t p u o, iblk1_1_apply V c t q u o, eb]

/-- THE RUNNING SUM after point n = 4 i + j, at row p and lane o: the sum over the first 32 (j + 1) rows b' of exp of
    minus the distance between row b = 16 i + p and row b'. -/
theorem scratch_at (c : Dev nD) : ∀ (n : Nat) (hn : n < cfg1.N) (p : Fin 16) (o : Fin 128) (b : Fin 128),
    b.val = 16 * (n / 4) + p.val →
    (outsAt1 V c n hn).2 (ix2 p o) = ∑ b' ∈ Finset.range (32 * (n % 4 + 1)), simNat (M1 V c) b o b' := by
  have caseA : ∀ (n : Nat) (hn : n < cfg1.N) (h0 : n % 4 = 0) (p : Fin 16) (o : Fin 128) (b : Fin 128),
      b.val = 16 * (n / 4) + p.val →
      (outsAt1 V c n hn).2 (ix2 p o) = ∑ b' ∈ Finset.range (32 * (n % 4 + 1)), simNat (M1 V c) b o b' := by
    intro n hn h0 p o b hb
    rw [scr_A V c n hn h0, step_rows V c ⟨n, hn⟩ _ p o b hb, pay3_apply, zero_add]
    show ∑ q ∈ Finset.range 32, simNat (M1 V c) b o (32 * (n % 4) + q) = _
    rw [h0]
    simp only [Nat.mul_zero, Nat.zero_add, Nat.mul_one]
  intro n
  induction n with
  | zero => exact fun hn => caseA 0 hn rfl
  | succ k ih =>
    intro hn p o b hb
    by_cases h0 : (k + 1) % 4 = 0
    · exact caseA (k + 1) hn h0 p o b hb
    · have hdiv : (k + 1) / 4 = k / 4 := by omega
      have hmod : (k + 1) % 4 = k % 4 + 1 := by omega
      have e32 : 32 * (k % 4 + 1 + 1) = 32 * (k % 4 + 1) + 32 := by omega
      rw [scr_BC V c k hn h0, step_rows V c ⟨k + 1, hn⟩ _ p o b hb,
        ih (Nat.lt_of_succ_lt hn) p o b (by rw [hb, hdiv])]
      show _ + ∑ q ∈ Finset.range 32, simNat (M1 V c) b o (32 * ((k + 1) % 4) + q)
        = ∑ b' ∈ Finset.range (32 * ((k + 1) % 4 + 1)), simNat (M1 V c) b o b'
      rw [hmod, e32, Finset.sum_range_add]

/-! ## The result array -/

/-- WHAT A WRITING POINT WRITES BACK (t = 4 i + 3): block i of the result array. -/
theorem flushed1 (c : Dev nD) (t : Fin cfg1.N) (hf : (cfg1.win 2).flush t = true) :
    (dat1 (F := Ideal) V c).flushed 2 t = ((cfg1.win 2).blk t).view.read (Elt Ideal) (outArr (M1 V c)) := by
  have h3 : t.val % 4 = 3 := (flush1_2 t).mp hf
  show (cfg1.win 2).cut (grid1.coords t) ((dat1 V c).after 2 t) = _
  rw [after1_2, out_C V c t.val t.isLt h3]
  funext j
  obtain ⟨p, o, rfl⟩ : ∃ (p : Fin 16) (o : Fin 128), j = ix2 p o := ⟨j 0, j 1, eq_ix2 j⟩
  show k1_pay2 (outsAt1 V c t.val t.isLt).2 (ix2 p o) = outArr (M1 V c) (((cfg1.win 2).blk t).view.emb (ix2 p o))
  rw [emb_blk1, pay2_apply, scratch_at V c t.val t.isLt p o ⟨16 * (t.val / 4) + p.val, by have := lt_N1 t; omega⟩ rfl, h3]
  show (∑ b' ∈ Finset.range 128, _) - _ = (∑ b' : Fin 128, _) - _
  rw [Finset.sum_range]
  refine congrArg (· - _) (Finset.sum_congr rfl fun b' _ => ?_)
  unfold simNat
  rw [dif_pos b'.isLt]

/-- THE RESULT of the second pallas_call, entry by entry: at row b and lane o, the sum over all 128 rows b' of exp of
    minus the L¹ distance over the 32 inner coordinates between rows b and b' of the projected array, less 1.0. -/
theorem final1_apply (c : Dev nD) (b o : Fin 128) :
    (dat1 (F := Ideal) V c).arrAt 2 cfg1.N (ix2 b o)
      = (∑ b' : Fin 128, Ideal.exp (-(∑ t : Fin 32, max (M1 V c (ix3 b t o) - M1 V c (ix3 b' t o)) (-(M1 V c (ix3 b t o) - M1 V c (ix3 b' t o))))))
        - Ideal.ofBits .f32 0x3F800000#32 := by
  rw [final1_of_flushed V c (outArr (M1 V c)) (flushed1 V c)]
  rfl

end Region1d

end Cert.KernelIdeal.Hand

end
-- ==== Proof.IdealValue0.lean ====
import proofs.«106312_j48043504173685_2_alg».proof.Proof.IdealReg0
import Idealize.ShloMosaic.Lib.ValueIdx
import Idealize.ShloMosaic.Lib.Pipeline.Value
import Idealize.ShloMosaic.PureOps.Ideal.Laws

/-! # The matrix-product region's value, over the extended reals

At the exact model every change of float format is the identity and the hardware product of two
blocks is the textbook one, so the array the region leaves is, entry by entry, the product of the two
arrays it was handed: entry (p, n) is the sum over k of left (p, k) times right (k, n).  The block that
grid point t writes holds columns 1024 t ... 1024 t + 1023, and the four blocks tile the 4096 columns. -/

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

/-! ## The product of two blocks, at an index -/

theorem hz0 : (![0, 0] : Fin 2 → Nat) = fun _ => 0 := funext fun a => by fin_cases a <;> rfl

/-- The left operand's index at output index `i` and contraction position `q`: row of `i`, -/
theorem lhs0_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
/-- and the contraction position. -/
theorem lhs0_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
/-- The right operand's index: the contraction position, -/
theorem rhs0_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
/-- and the column of `i`. -/
theorem rhs0_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- The body's stored value at row `p`, column `q` of the block: the sum over `k` of the left block at (p, k)
    times the right block at (k, q).  The two narrowings and the same-shape cast are identities; the product
    into a zero accumulator is the plain sum, re-indexed from the contraction's index type to `Fin 1024`. -/
theorem pay0_apply (x0 : Vec Ideal S128x1024 .f32) (x1 : Vec Ideal S1024x1024 .f32) (p : Fin 128) (q : Fin 1024) :
    k0_pay1 (F := Ideal) x0 x1 (ix2 p q) = ∑ k : Fin 1024, x0 (ix2 p k) * x1 (ix2 k q) := by
  unfold k0_pay1
  refine (Ideal.matmul_constant_zero_apply dot_S128x1024_S1024x1024_S128x1024_1_0_0_1_n_n none _ _ (ix2 p q)).trans ?_
  rw [← Equiv.sum_comp (contrEquiv1 dot_S128x1024_S1024x1024_S128x1024_1_0_0_1_n_n 1024 rfl rfl).symm]
  refine Finset.sum_congr rfl fun k _ => ?_
  have hk := contrEquiv1_symm_val dot_S128x1024_S1024x1024_S128x1024_1_0_0_1_n_n 1024 rfl rfl k
  have el : dot_S128x1024_S1024x1024_S128x1024_1_0_0_1_n_n.lhsIdx (ix2 p q) ((contrEquiv1 dot_S128x1024_S1024x1024_S128x1024_1_0_0_1_n_n 1024 rfl rfl).symm k) = ix2 p k := funext fun a => Fin.ext (by
    match a with
    | ⟨0, _⟩ => exact lhs0_0 _ _
    | ⟨1, _⟩ => exact (lhs0_1 _ _).trans hk)
  have er : dot_S128x1024_S1024x1024_S128x1024_1_0_0_1_n_n.rhsIdx (ix2 p q) ((contrEquiv1 dot_S128x1024_S1024x1024_S128x1024_1_0_0_1_n_n 1024 rfl rfl).symm k) = ix2 k q := funext fun a => Fin.ext (by
    match a with
    | ⟨0, _⟩ => exact (rhs0_0 _ _).trans hk
    | ⟨1, _⟩ => exact rhs0_1 _ _)
  rw [el, er, shapeCast_self]
  rfl

/-! ## From the four blocks to the array -/

section Region0
-- the core's buffer contents when the region is entered
variable (V : (c : Dev nD) → (b : Ref sig .tc) → Buf (Elt Ideal) ((c : Thread nD τ).loc b))

/-- The product of a 128 x 1024 array and a 1024 x 4096 array, entry by entry. -/
def prod0 (a : S128x1024.Idx → Elt Ideal .f32) (b : S1024x4096.Idx → Elt Ideal .f32) : S128x4096.Idx → Elt Ideal .f32 :=
  fun i => ∑ k : Fin 1024, a (ix2 (⟨(i 0).val, (i 0).isLt⟩ : Fin 128) k) * b (ix2 k (⟨(i 1).val, (i 1).isLt⟩ : Fin 4096))

theorem prod0_apply (a : S128x1024.Idx → Elt Ideal .f32) (b : S1024x4096.Idx → Elt Ideal .f32) (i : S128x4096.Idx) :
    prod0 a b i = ∑ k : Fin 1024, a (ix2 (⟨(i 0).val, (i 0).isLt⟩ : Fin 128) k) * b (ix2 k (⟨(i 1).val, (i 1).isLt⟩ : Fin 4096)) := rfl

/-- The product at row `p`, column `n`. -/
theorem prod0_ix2 (a : S128x1024.Idx → Elt Ideal .f32) (b : S1024x4096.Idx → Elt Ideal .f32) (p : Fin 128) (n : Fin 4096) :
    prod0 a b (ix2 p n) = ∑ k : Fin 1024, a (ix2 p k) * b (ix2 k n) := rfl

/-- The printed index maps over the four grid points: the left factor's one block is block (0, 0); the right
    factor's and the product's blocks at point `t` are block (0, t). -/
theorem idx_facts0 : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point `t` writes back is block `t` of the product of the two arrays the region was handed (the left
    one is the program's first argument's array, the right one the array the host operations before the region
    wrote last). -/
theorem flushed0_eq (c : Dev nD) (t : Fin cfg0.N) :
    (dat0 (F := Ideal) V c).flushed 2 t
      = ((cfg0.win 2).blk t).view.read (Elt Ideal) (prod0 (V c main_arg0) (V c main_v2)) := by
  show (cfg0.win 2).cut (grid0.coords t) ((dat0 (F := Ideal) V c).after 2 t) = _
  rw [after0_2]
  unfold out0_2
  rw [View.canon_unit_zero hz0]
  simp only [View.ld_unit_zero (S := S128x1024) hz0, View.ld_unit_zero (S := S1024x1024) hz0]
  obtain ⟨e0, e1, e2, e3, e4, e5⟩ := idx_facts0 t
  funext j
  obtain ⟨p, q, rfl⟩ : ∃ (p : Fin 128) (q : Fin 1024), j = ix2 p q := ⟨j 0, j 1, eq_ix2 j⟩
  refine (pay0_apply (iblk0 V c 0 t) (iblk0 V c 1 t) p q).trans ?_
  show _ = prod0 (V c main_arg0) (V c main_v2) (((cfg0.win 2).blk t).view.emb (ix2 p q))
  refine Eq.trans ?_ (prod0_apply _ _ _).symm
  refine Finset.sum_congr rfl fun k _ => ?_
  refine congrArg₂ (· * ·) ?_ ?_
  · show V c main_arg0 (((cfg0.win 0).blk t).view.emb (ix2 p k)) = _
    refine congrArg (V c main_arg0) (funext fun a => Fin.ext ?_)
    match a with
    | ⟨0, _⟩ => show win0_0.index t (0 : Fin 2) * 128 + 1 * p.val = win0_2.index t (0 : Fin 2) * 128 + 1 * p.val; omega
    | ⟨1, _⟩ => show win0_0.index t (1 : Fin 2) * 1024 + 1 * k.val = k.val; omega
  · show V c main_v2 (((cfg0.win 1).blk t).view.emb (ix2 k q)) = _
    refine congrArg (V c main_v2) (funext fun a => Fin.ext ?_)
    match a with
    | ⟨0, _⟩ => show win0_1.index t (0 : Fin 2) * 1024 + 1 * k.val = k.val; omega
    | ⟨1, _⟩ => show win0_1.index t (1 : Fin 2) * 1024 + 1 * q.val = win0_2.index t (1 : Fin 2) * 1024 + 1 * q.val; omega

/-- An index of the array is in point `t`'s block iff each coordinate is in the block's range on its axis. -/
theorem mem_blk0 (t : Fin cfg0.N) (i : S128x4096.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v3).slice (win0_2.rect t)).set ↔ _
  rw [View.set_slice_whole, Rect.mem_set_unit]
  exact Iff.rfl

/-- Every index of the array is in some point's block: column `n` is in the block of point `n / 1024`. -/
theorem cover0 (i : S128x4096.Idx) : ∃ t : Fin cfg0.N, (cfg0.win 2).flush t = true ∧ i ∈ ((cfg0.win 2).blk t).view.set := by
  have hi0 : (i 0).val < 128 := (i 0).isLt
  have hi1 : (i 1).val < 4096 := (i 1).isLt
  have hN : cfg0.N = 4 := N_0
  refine ⟨⟨(i 1).val / 1024, by rw [hN]; omega⟩, flush0_2 _, ?_⟩
  rw [mem_blk0]
  obtain ⟨e0, e1, e2, e3, e4, e5⟩ := idx_facts0 ⟨(i 1).val / 1024, by rw [hN]; omega⟩
  intro a
  match a with
  | ⟨0, _⟩ => show win0_2.index _ (0 : Fin 2) * 128 ≤ (i 0).val ∧ (i 0).val < win0_2.index _ (0 : Fin 2) * 128 + 128; rw [e4]; omega
  | ⟨1, _⟩ => show win0_2.index _ (1 : Fin 2) * 1024 ≤ (i 1).val ∧ (i 1).val < win0_2.index _ (1 : Fin 2) * 1024 + 1024; rw [e5]; show (i 1).val / 1024 * 1024 ≤ (i 1).val ∧ (i 1).val < (i 1).val / 1024 * 1024 + 1024; omega

/-- THE ARRAY the region leaves: the product of the two arrays it was handed. -/
theorem final0 (c : Dev nD) :
    (dat0 (F := Ideal) V c).arrAt 2 cfg0.N = prod0 (V c main_arg0) (V c main_v2) :=
  (dat0 (F := Ideal) V c).arrAt_eq_of_cover 2 (prod0 (V c main_arg0) (V c main_v2))
    (fun t _ => flushed0_eq V c t) cover0

end Region0

end Cert.KernelIdeal.Hand

end
-- ==== Proof.IdealHost.lean ====
import proofs.«106312_j48043504173685_2_alg».proof.Proof.Gen.KernelIdeal.Launch
import Idealize.ShloMosaic.Lib.ValueIdx
import Idealize.ShloMosaic.Lib.Pipeline.Value
import Idealize.ShloMosaic.Lib.ValueLayout
import Idealize.ShloMosaic.Lib.StableHlo.Run

/-! # The three stretches of host operations, read at an index

Around its two regions the program re-lays arrays on the host.  Before the first region the 1024 x 4096
matrix T is viewed as [1024, 128, 32], its last two axes are exchanged, and the result is viewed as
[1024, 4096] again: column 128 t + o of the new matrix is column 32 o + t of T.  Between the regions the
128 x 4096 product is viewed as [128, 32, 128]: entry (b, t, o) is column 128 t + o of row b.  After the
second region the first argument and the 128 x 128 result are set side by side.  Each stretch is read here
from ANY contents of the buffers before it, at any float model. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]

/-! ## Before the first region: the permutation of T's columns -/

/-- The permuted matrix as a term of T. -/
theorem host0_v2 (W : Valuation τ sig (Elt F)) :
    (StableHlo.after (hostOps0 (F := F)) W (Proc.devRef .tc main_v2) : S1024x4096.Idx → Elt F .f32)
      = shapeCast S1024x4096 (transpose S1024x32x128 [0, 2, 1]
          (shapeCast S1024x128x32 (W (Proc.devRef .tc main_arg1) : S1024x4096.Idx → Elt F .f32) shapeCasts_S1024x4096_S1024x128x32)
          transposes_S1024x128x32_S1024x32x128_0_2_1) shapeCasts_S1024x32x128_S1024x4096 := by
  after_results
  rfl

/-- Column 128 t + o of the permuted matrix is column 32 o + t of T. -/
theorem host0_v2_apply (W : Valuation τ sig (Elt F)) (k : Fin 1024) (t : Fin 32) (o : Fin 128) :
    (StableHlo.after (hostOps0 (F := F)) W (Proc.devRef .tc main_v2) : S1024x4096.Idx → Elt F .f32) (ix2 k (⟨t.val * 128 + o.val, by omega⟩ : Fin 4096))
      = (W (Proc.devRef .tc main_arg1) : S1024x4096.Idx → Elt F .f32) (ix2 k (⟨o.val * 32 + t.val, by omega⟩ : Fin 4096)) := by
  rw [host0_v2]
  refine (shapeCast_apply _ shapeCasts_S1024x32x128_S1024x4096 _ (ix3 k t o) ?_).trans ?_
  · rewrite [Shape.rowMajor_val_two, Shape.rowMajor_val_three]
    show (k.val * 32 + t.val) * 128 + o.val = k.val * 4096 + (t.val * 128 + o.val)
    omega
  refine (transpose_apply [0, 2, 1] _ transposes_S1024x128x32_S1024x32x128_0_2_1 (ix3 k t o) (ix3 k o t) ?_).trans ?_
  · intro b
    match b with
    | ⟨0, _⟩ => rfl
    | ⟨1, _⟩ => rfl
    | ⟨2, _⟩ => rfl
  refine shapeCast_apply _ shapeCasts_S1024x4096_S1024x128x32 (ix3 k o t) _ ?_
  rewrite [Shape.rowMajor_val_two, Shape.rowMajor_val_three]
  show k.val * 4096 + (o.val * 32 + t.val) = (k.val * 128 + o.val) * 32 + t.val
  omega

/-- The first stretch writes neither argument. -/
theorem host0_arg0 (W : Valuation τ sig (Elt F)) :
    StableHlo.after (hostOps0 (F := F)) W (Proc.devRef .tc main_arg0) = W (Proc.devRef .tc main_arg0) := by
  after_results
theorem host0_arg1 (W : Valuation τ sig (Elt F)) :
    StableHlo.after (hostOps0 (F := F)) W (Proc.devRef .tc main_arg1) = W (Proc.devRef .tc main_arg1) := by
  after_results

/-! ## Between the regions: the product seen as [128, 32, 128] -/

theorem host1_v4 (W : Valuation τ sig (Elt F)) :
    (StableHlo.after (hostOps1 (F := F)) W (Proc.devRef .tc main_v4) : S128x32x128.Idx → Elt F .f32)
      = shapeCast S128x32x128 (W (Proc.devRef .tc main_v3) : S128x4096.Idx → Elt F .f32) shapeCasts_S128x4096_S128x32x128 := by
  after_results
  rfl

/-- Entry (b, t, o) is column 128 t + o of row b. -/
theorem host1_v4_apply (W : Valuation τ sig (Elt F)) (b : Fin 128) (t : Fin 32) (o : Fin 128) :
    (StableHlo.after (hostOps1 (F := F)) W (Proc.devRef .tc main_v4) : S128x32x128.Idx → Elt F .f32) (ix3 b t o)
      = (W (Proc.devRef .tc main_v3) : S128x4096.Idx → Elt F .f32) (ix2 b (⟨t.val * 128 + o.val, by omega⟩ : Fin 4096)) := by
  rw [host1_v4]
  refine shapeCast_apply _ shapeCasts_S128x4096_S128x32x128 (ix3 b t o) _ ?_
  rewrite [Shape.rowMajor_val_two, Shape.rowMajor_val_three]
  show b.val * 4096 + (t.val * 128 + o.val) = (b.val * 32 + t.val) * 128 + o.val
  omega

/-- The second stretch writes neither argument. -/
theorem host1_arg0 (W : Valuation τ sig (Elt F)) :
    StableHlo.after (hostOps1 (F := F)) W (Proc.devRef .tc main_arg0) = W (Proc.devRef .tc main_arg0) := by
  after_results
theorem host1_arg1 (W : Valuation τ sig (Elt F)) :
    StableHlo.after (hostOps1 (F := F)) W (Proc.devRef .tc main_arg1) = W (Proc.devRef .tc main_arg1) := by
  after_results

/-! ## After the second region: the two arrays side by side -/

theorem host2_v6 (W : Valuation τ sig (Elt F)) :
    (StableHlo.after (hostOps2 (F := F)) W (Proc.devRef .tc main_v6) : S128x1152.Idx → Elt F .f32)
      = concatenate S128x1152 1 [⟨S128x1024, (W (Proc.devRef .tc main_arg0) : S128x1024.Idx → Elt F .f32)⟩,
          ⟨S128x128, (W (Proc.devRef .tc main_v5) : S128x128.Idx → Elt F .f32)⟩] concatenates_S128x1024_S128x128_S128x1152_d1 := by
  after_results

/-- A column below 1024 is the first argument's. -/
theorem host2_v6_left (W : Valuation τ sig (Elt F)) (b : Fin 128) (n : Fin 1152) (h : n.val < 1024) :
    (StableHlo.after (hostOps2 (F := F)) W (Proc.devRef .tc main_v6) : S128x1152.Idx → Elt F .f32) (ix2 b n)
      = (W (Proc.devRef .tc main_arg0) : S128x1024.Idx → Elt F .f32) (ix2 b (⟨n.val, h⟩ : Fin 1024)) := by
  rw [host2_v6]
  refine concatenate_pair_apply_left (1 : Fin S128x1152.rank) _ _ concatenates_S128x1024_S128x128_S128x1152_d1 (ix2 b n) rfl (ix2 b (⟨n.val, h⟩ : Fin 1024)) ?_
  intro a
  match a with
  | ⟨0, _⟩ => rfl
  | ⟨1, _⟩ => rfl

/-- Column 1024 + o is the second region's result at column o. -/
theorem host2_v6_right (W : Valuation τ sig (Elt F)) (b : Fin 128) (n : Fin 1152) (o : Fin 128) (h : n.val = 1024 + o.val) :
    (StableHlo.after (hostOps2 (F := F)) W (Proc.devRef .tc main_v6) : S128x1152.Idx → Elt F .f32) (ix2 b n)
      = (W (Proc.devRef .tc main_v5) : S128x128.Idx → Elt F .f32) (ix2 b o) := by
  rw [host2_v6]
  refine concatenate_pair_apply_right (1 : Fin S128x1152.rank) _ _ concatenates_S128x1024_S128x128_S128x1152_d1 (ix2 b n) rfl rfl (ix2 b o) ?_ ?_
  · intro a ha
    match a with
    | ⟨0, _⟩ => rfl
    | ⟨1, _⟩ => exact absurd rfl ha
  · show o.val + 1024 = n.val
    omega

end Cert.KernelIdeal.Hand

end
-- ==== Proof.IdealGlue.lean ====
import proofs.«106312_j48043504173685_2_alg».proof.Proof.IdealRunData
import proofs.«106312_j48043504173685_2_alg».proof.Proof.IdealValue0
import proofs.«106312_j48043504173685_2_alg».proof.Proof.IdealHost
import proofs.«106312_j48043504173685_2_alg».proof.Proof.Spec
import Idealize.ShloMosaic.Lib.ValueIdx
import Idealize.ShloMosaic.Lib.Pipeline.Value

/-! # The program's result as the specification's function, over the extended reals

The host operations between the regions only re-lay arrays, so the array the second region reads is the
specification's M: entry (b, t, o) is the sum over k of x (b, k) T (k, 32 o + t).  Given what the second
region leaves — for each sample b and feature o the sum over b' of exp of minus the L1 distance, less one —
the concatenation at the end is the specification's result. -/

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx
open scoped BigOperators

variable (m : (ℓ : Loc nD τ sig) → Buf (Elt Ideal) ℓ) (ρ : Dev nD → PrngReg)

/-! ## The arguments are never written -/

theorem E0_arg0 (c : Dev nD) : E0 m ρ c main_arg0 = m ((c : Thread nD τ).loc main_arg0) :=
  host0_arg0 (W0 m ρ c)
theorem E0_arg1 (c : Dev nD) : E0 m ρ c main_arg1 = m ((c : Thread nD τ).loc main_arg1) :=
  host0_arg1 (W0 m ρ c)

/-- The first region leaves its left factor's array as it found it. -/
theorem W2_arg0 (c : Dev nD) : W2 m ρ c (Proc.devRef .tc main_arg0) = m ((c : Thread nD τ).loc main_arg0) := by
  refine (W2_arr m ρ c 0).trans ?_
  rw [(dat0 (E0 m ρ) c).arrAt_in 0 rfl cfg0.N, A_eq0]
  exact E0_arg0 m ρ c

theorem W4_arg0 (c : Dev nD) : W4 m ρ c main_arg0 = m ((c : Thread nD τ).loc main_arg0) := by
  refine (W4_of_ne m ρ c main_arg0 (by decide)).trans ?_
  exact (host1_arg0 (W2 m ρ c)).trans (W2_arg0 m ρ c)

/-! ## The permuted matrix and the projected array -/

/-- T_perm[k, 128 t + o] = T[k, 32 o + t]. -/
theorem tperm_apply (c : Dev nD) (k : Fin 1024) (t : Fin 32) (o : Fin 128) :
    E0 m ρ c main_v2 (ix2 k (⟨t.val * 128 + o.val, by omega⟩ : Fin 4096)) = m ((c : Thread nD τ).loc main_arg1) (ix2 k (Cert.Spec.col o t)) :=
  host0_v2_apply (W0 m ρ c) k t o

/-- The array the second region reads, with its entries as extended reals. -/
abbrev P1 (c : Dev nD) : S128x32x128.Idx → EReal := E1 m ρ c main_v4

/-- The array the second region reads is the specification's M: entry (b, t, o) is M[b, o, t]. -/
theorem proj_apply (c : Dev nD) (b : Fin 128) (t : Fin 32) (o : Fin 128) :
    E1 m ρ c main_v4 (ix3 b t o) = Cert.Spec.proj (m ((c : Thread nD τ).loc main_arg0)) (m ((c : Thread nD τ).loc main_arg1)) b o t := by
  refine (host1_v4_apply (W2 m ρ c) b t o).trans ?_
  have e2 : W2 m ρ c (Proc.devRef .tc main_v3) = prod0 (E0 m ρ c main_arg0) (E0 m ρ c main_v2) :=
    (W2_arr m ρ c 2).trans (final0 (E0 m ρ) c)
  rw [e2, prod0_ix2]
  unfold Cert.Spec.proj
  show (_ : EReal) = _
  refine Finset.sum_congr rfl fun k _ => ?_
  rw [E0_arg0, tperm_apply]

theorem P1_apply (c : Dev nD) (b : Fin 128) (t : Fin 32) (o : Fin 128) :
    P1 m ρ c (ix3 b t o) = Cert.Spec.proj (m ((c : Thread nD τ).loc main_arg0)) (m ((c : Thread nD τ).loc main_arg1)) b o t :=
  proj_apply m ρ c b t o

/-! ## The last stretch -/

/-- The second region's result array, with its entries as extended reals. -/
abbrev R1 (c : Dev nD) : S128x128.Idx → EReal := (dat1 (F := Ideal) (E1 m ρ) c).arrAt 2 cfg1.N

theorem out_left (c : Dev nD) (b : Fin 128) (n : Fin 1152) (h : n.val < 1024) :
    W5 m ρ c (Proc.devRef .tc main_v6) (ix2 b n) = m ((c : Thread nD τ).loc main_arg0) (ix2 b (⟨n.val, h⟩ : Fin 1024)) := by
  refine (host2_v6_left (W4 m ρ c) b n h).trans ?_
  rw [W4_arg0]

theorem out_right (c : Dev nD) (b : Fin 128) (n : Fin 1152) (o : Fin 128) (h : n.val = 1024 + o.val) :
    W5 m ρ c (Proc.devRef .tc main_v6) (ix2 b n) = R1 m ρ c (ix2 b o) := by
  refine (host2_v6_right (W4 m ρ c) b n o h).trans ?_
  rw [W4_v5]

/-! ## The program's result -/

/-- If the second region leaves, at sample b and feature o, the sum over b' of exp of minus the L1 distance between
    rows b and b' of the array it read (in feature o, over the 32 inner coordinates), less one, then the program's
    result array is the specification's. -/
theorem kernel_value' (c : Dev nD)
    (hfinal1 : ∀ (b o : Fin 128), R1 m ρ c (ix2 b o)
      = (∑ b' : Fin 128, Ideal.exp (-(∑ t : Fin 32, max (P1 m ρ c (ix3 b t o) - P1 m ρ c (ix3 b' t o)) (-(P1 m ρ c (ix3 b t o) - P1 m ρ c (ix3 b' t o))))))
          - Ideal.ofBits .f32 0x3F800000#32) :
    W5 m ρ c (Proc.devRef .tc main_v6) = Cert.Spec.G (m ((c : Thread nD τ).loc main_arg0)) (m ((c : Thread nD τ).loc main_arg1)) := by
  funext j
  obtain ⟨b, n, rfl⟩ : ∃ (b : Fin 128) (n : Fin 1152), j = ix2 b n := ⟨j 0, j 1, eq_ix2 j⟩
  by_cases h : n.val < 1024
  · rw [Cert.Spec.G_left _ _ b n h]
    exact out_left m ρ c b n h
  · have hn : n.val < 1152 := n.isLt
    rw [Cert.Spec.G_right _ _ b n (⟨n.val - 1024, by omega⟩ : Fin 128) (by show n.val = 1024 + (n.val - 1024); omega)]
    refine (out_right m ρ c b n (⟨n.val - 1024, by omega⟩ : Fin 128) (by show n.val = 1024 + (n.val - 1024); omega)).trans ?_
    rw [hfinal1]
    unfold Cert.Spec.ob Cert.Spec.dist
    refine congrArg (· - Ideal.ofBits .f32 0x3F800000#32) (Finset.sum_congr rfl fun b' _ => ?_)
    refine congrArg (fun z : EReal => Ideal.exp (-z)) (Finset.sum_congr rfl fun t _ => ?_)
    rw [P1_apply, P1_apply]

/-- The same from the second region's array stated as one function of its index. -/
theorem kernel_value (c : Dev nD)
    (hfinal1 : (dat1 (F := Ideal) (E1 m ρ) c).arrAt 2 cfg1.N = fun i : S128x128.Idx =>
      (∑ b' : Fin 128, Ideal.exp (-(∑ t : Fin 32,
          max (P1 m ρ c (ix3 (⟨(i 0).val, (i 0).isLt⟩ : Fin 128) t (⟨(i 1).val, (i 1).isLt⟩ : Fin 128)) - P1 m ρ c (ix3 b' t (⟨(i 1).val, (i 1).isLt⟩ : Fin 128)))
            (-(P1 m ρ c (ix3 (⟨(i 0).val, (i 0).isLt⟩ : Fin 128) t (⟨(i 1).val, (i 1).isLt⟩ : Fin 128)) - P1 m ρ c (ix3 b' t (⟨(i 1).val, (i 1).isLt⟩ : Fin 128)))))))
        - Ideal.ofBits .f32 0x3F800000#32) :
    W5 m ρ c (Proc.devRef .tc main_v6) = Cert.Spec.G (m ((c : Thread nD τ).loc main_arg0)) (m ((c : Thread nD τ).loc main_arg1)) :=
  kernel_value' m ρ c fun b o => by
    show (dat1 (F := Ideal) (E1 m ρ) c).arrAt 2 cfg1.N (ix2 b o) = _
    rw [hfinal1]

end Cert.KernelIdeal.Hand

end
-- ==== Proof.RefValue.lean ====
/-
  The reference's result, read index by index, is the specification's function of the two arguments.

  The reference forms the product x · T as a [128, 4096] array, reshapes it to [128, 128, 32] (row-major, so entry
  (b, o, t) is column 32·o + t of row b), broadcasts it once along a new second axis and once along a new first axis to
  [128, 128, 128, 32], so that entry (b, b', o, t) of the one is M[b, o, t] and of the other M[b', o, t], subtracts, takes
  absolute values, sums over t from the zero word, negates, exponentiates, sums over b' from the zero word, subtracts the
  broadcast 1.0, and appends the result to x along the columns. Each step is read at an index; the two zero words are
  the real 0 and drop out of their sums.
-/
import proofs.«106312_j48043504173685_2_alg».proof.Proof.Spec
import proofs.«106312_j48043504173685_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

/-- Entry (b, o, t) of the reshaped product is M[b, o, t]: the reshape sends it to row b, column 32·o + t of the
    product, which is the sum over k of x[b, k] · T[k, 32·o + t]. -/
theorem reshaped_product (x0 : (⟨S128x1024, .f32⟩ : BufTy).Contents (Elt Ideal)) (x1 : (⟨S1024x4096, .f32⟩ : BufTy).Contents (Elt Ideal))
    (b o : Fin 128) (t : Fin 32) :
    val_main_v1 (F := Ideal) x0 x1 (ix3 b o t) = Cert.Spec.proj x0 x1 b o t := by
  rw [val_main_v1_apply, val_main_v0_apply]
  unfold Cert.Spec.proj
  refine Finset.sum_congr rfl fun k _ => ?_
  have hb : b.val < 128 := b.isLt
  have ho : o.val < 128 := o.isLt
  have ht : t.val < 32 := t.isLt
  have el : lidx_main_v0 (idx_main_v1 (ix3 b o t)) k = ix2 b k := funext fun a => Fin.ext (by
    match a with
    | ⟨0, _⟩ => show ((b.val * 128 + o.val) * 32 + t.val) / 4096 = b.val; omega
    | ⟨1, _⟩ => rfl)
  have er : ridx_main_v0 (idx_main_v1 (ix3 b o t)) k = ix2 k (Cert.Spec.col o t) := funext fun a => Fin.ext (by
    match a with
    | ⟨0, _⟩ => rfl
    | ⟨1, _⟩ => show ((b.val * 128 + o.val) * 32 + t.val) % 4096 = o.val * 32 + t.val; omega)
  rw [el, er]

/-- Entry (b, b', o) of the summed absolute differences is the L¹ distance d[b, b', o]: the first broadcast reads
    M[b, o, t], the second M[b', o, t], and the sum starts from the real 0. -/
theorem summed_abs (x0 : (⟨S128x1024, .f32⟩ : BufTy).Contents (Elt Ideal)) (x1 : (⟨S1024x4096, .f32⟩ : BufTy).Contents (Elt Ideal))
    (b b' o : Fin 128) :
    val_main_v8 (F := Ideal) x0 x1 (ix3 b b' o) = Cert.Spec.dist x0 x1 b b' o := by
  rw [val_main_v8_apply, val_main_cst_apply, Ideal.ofBits_def, Ideal.ofBits_zero_f32, zero_add]
  unfold Cert.Spec.dist
  refine Finset.sum_congr rfl fun t _ => ?_
  rw [val_main_v7_apply, val_main_v6_apply, val_main_v4_apply, val_main_v5_apply, val_main_v2_apply, val_main_v3_apply]
  have e2 : idx_main_v2 (idx_main_v4 (idx_main_v8 (ix3 b b' o) t)) = ix3 b o t := funext fun a => Fin.ext (by
    match a with
    | ⟨0, _⟩ => rfl
    | ⟨1, _⟩ => rfl
    | ⟨2, _⟩ => rfl)
  have e3 : idx_main_v3 (idx_main_v5 (idx_main_v8 (ix3 b b' o) t)) = ix3 b' o t := funext fun a => Fin.ext (by
    match a with
    | ⟨0, _⟩ => rfl
    | ⟨1, _⟩ => rfl
    | ⟨2, _⟩ => rfl)
  rw [e2, e3, reshaped_product, reshaped_product]
  rfl

/-- Entry (b, o) of the reference's new features is the specification's: the sum over b' of exp (−d[b, b', o]), from
    the real 0, less the broadcast 1.0. -/
theorem features (x0 : (⟨S128x1024, .f32⟩ : BufTy).Contents (Elt Ideal)) (x1 : (⟨S1024x4096, .f32⟩ : BufTy).Contents (Elt Ideal))
    (b o : Fin 128) :
    val_main_v13 (F := Ideal) x0 x1 (ix2 b o) = Cert.Spec.ob x0 x1 b o := by
  rw [val_main_v13_apply, val_main_v11_apply, val_main_v12_apply, val_main_cst_1_apply, val_main_cst_0_apply,
    Ideal.ofBits_def, Ideal.ofBits_def, Ideal.ofBits_zero_f32, zero_add, Ideal.subf_def]
  unfold Cert.Spec.ob
  refine congrArg (· - _) (Finset.sum_congr rfl fun b' _ => ?_)
  rw [val_main_v10_apply, val_main_v9_apply]
  have e : idx_main_v11 (ix2 b o) b' = ix3 b b' o := funext fun a => Fin.ext (by
    match a with
    | ⟨0, _⟩ => rfl
    | ⟨1, _⟩ => rfl
    | ⟨2, _⟩ => rfl)
  rw [e, summed_abs]
  rfl

/-- The reference's whole result is the specification's function of its two arguments: the joined array reads x at
    a column below 1024 and the new features at a column from 1024 on, 1024 less. -/
theorem result_eq (x0 : (⟨S128x1024, .f32⟩ : BufTy).Contents (Elt Ideal)) (x1 : (⟨S1024x4096, .f32⟩ : BufTy).Contents (Elt Ideal)) :
    val_main_v14 (F := Ideal) x0 x1 = Cert.Spec.G x0 x1 := by
  funext j
  obtain ⟨b, c, rfl⟩ : ∃ (b : Fin 128) (c : Fin 1152), j = ix2 b c := ⟨j 0, j 1, eq_ix2 j⟩
  unfold val_main_v14
  by_cases h : c.val < 1024
  · rw [Cert.Spec.G_left x0 x1 b c h]
    exact concatenate_pair_apply_left 1 x0 (val_main_v13 (F := Ideal) x0 x1) concatenates_S128x1024_S128x128_S128x1152_d1
      (ix2 b c) rfl (ix2 b (⟨c.val, h⟩ : Fin 1024)) (fun a => by
        match a with
        | ⟨0, _⟩ => rfl
        | ⟨1, _⟩ => rfl)
  · have hc : c.val < 1152 := c.isLt
    have ho : c.val - 1024 < 128 := by omega
    rw [Cert.Spec.G_right x0 x1 b c (⟨c.val - 1024, ho⟩ : Fin 128) (by show c.val = 1024 + (c.val - 1024); omega),
      ← features x0 x1 b ⟨c.val - 1024, ho⟩]
    exact concatenate_pair_apply_right 1 x0 (val_main_v13 (F := Ideal) x0 x1) concatenates_S128x1024_S128x128_S128x1152_d1
      (ix2 b c) rfl rfl (ix2 b (⟨c.val - 1024, ho⟩ : Fin 128))
      (fun a ha => by
        match a with
        | ⟨0, _⟩ => rfl
        | ⟨1, _⟩ => exact absurd rfl ha)
      (by show c.val - 1024 + 1024 = c.val; omega)

end Cert.ReferenceIdeal.RefValue

end
-- ==== Proof.RefRun.lean ====
/-
  The reference's run with its result named: every weakly fair execution of the reference terminates, nothing
  faulting, with its result array at the specification's function of the two argument arrays as the run found them,
  and the two argument arrays unchanged. Dropping the result leaves the reference's frame.
-/
import proofs.«106312_j48043504173685_2_alg».proof.Defs
import proofs.«106312_j48043504173685_2_alg».proof.Proof.Gen.Pre_finite_inputs
import proofs.«106312_j48043504173685_2_alg».proof.Proof.RefValue

noncomputable section

namespace Cert.ReferenceIdeal.RefValue

open Cert.ReferenceIdeal Cert.ReferenceIdeal.Gen Cert.ReferenceIdeal.Read Idealize.ShloMosaic Idealize.ShloMosaic.TcCoe Idealize.SL.Sem

/-- The reference's run: the result array ends at the specification's function of the two arguments' initial contents,
    and the arguments end unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v14)
        = Cert.Spec.G (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨(h c).1.trans ((val_main_v14_eq _ _).trans (result_eq _ _)), (h c).2⟩)
    (Cert.ReferenceIdeal.Value.run (F := Ideal) m' ρ')

/-- The reference's frame: it terminates, nothing faulting, and leaves its two arguments unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The kernel computes, for x : [128, 1024] and T : [1024, 4096], the array [x | o] of shape [128, 1152] with

      o[b, f] = (sum over b' < 128 of exp (-(sum over t < 32 of |M[b, f, t] - M[b', f, t]|))) - 1,
      M[b, f, t] = sum over k < 1024 of x[b, k] * T[k, 32 f + t],

  and so does the reference. The kernel gets there by another road. It permutes T's columns on the host so that the
  product x · T' comes out with the 128 features f as the last axis; a first pallas_call forms that product in four
  column blocks; a second one walks a grid of 8 × 4 points (i, j), and at each point adds into a scratch buffer, for
  the 16 rows b of block i, the sum over the 32 rows b' of block j of the exponential of minus the summed absolute
  differences, clearing the scratch at j = 0 and writing it out less one at j = 3; the host then concatenates.
  Over the extended reals, where every operation is exact and a change of float format is the identity, the two are
  one function: the column permutation only relabels T's columns; a product taken in column blocks is the product; and
  the sum over b' < 128 is the sum over j < 4 of the sums over the 32 rows of block j, by commutativity and
  associativity of addition alone — no finiteness of the inputs is used.

  The three frame claims: each program runs to its end without a fault and leaves its two arguments as launched. For
  the reference this is its run with the result dropped. For the kernel, at the word-level instance and at the exact one
  alike, it is the run of its five segments (three stretches of host operations around the two pallas_calls), each
  pallas_call entering through its pipeline's body obligation: for the second, whose two input windows read one array
  and whose body carries the scratch from point to point, the obligation is taken case by case on j. The idealization
  rewrote nothing, so the fourth claim is trivial. The fifth names both programs' results by the one function above.
-/
import proofs.«106312_j48043504173685_2_alg».proof.Defs
import proofs.«106312_j48043504173685_2_alg».proof.Proof.Gen.Kernel
import proofs.«106312_j48043504173685_2_alg».proof.Proof.Gen.KernelIdeal
import proofs.«106312_j48043504173685_2_alg».proof.Proof.Gen.ReferenceIdeal
import proofs.«106312_j48043504173685_2_alg».proof.Proof.Gen.Pre_finite_inputs
import proofs.«106312_j48043504173685_2_alg».proof.Proof.BitsRun
import proofs.«106312_j48043504173685_2_alg».proof.Proof.BitsRunArgs
import proofs.«106312_j48043504173685_2_alg».proof.Proof.IdealRun
import proofs.«106312_j48043504173685_2_alg».proof.Proof.IdealRunArgs
import proofs.«106312_j48043504173685_2_alg».proof.Proof.IdealValue1
import proofs.«106312_j48043504173685_2_alg».proof.Proof.IdealGlue
import proofs.«106312_j48043504173685_2_alg».proof.Proof.RefRun

noncomputable section

namespace Cert.Proof

open Idealize.ShloMosaic Idealize.ShloMosaic.TcCoe Idealize.SL.Sem

/-- The word-level kernel runs to its end and leaves its arguments as launched: its run's last boundary, read at the
    two arguments. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W5_main_arg0 m ρ c),
     (h c _ (Cert.Kernel.Hand.mem_uc Cert.Kernel.main_arg1 (by decide))).trans (Cert.Kernel.Hand.W5_main_arg1 m ρ c)⟩)
    (Cert.Kernel.Hand.run_main (F := Bits) m ρ)

/-- The same of the kernel read over the extended reals. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W5_main_arg0 m ρ c),
     (h c _ (Cert.KernelIdeal.Hand.mem_uc Cert.KernelIdeal.main_arg1 (by decide))).trans (Cert.KernelIdeal.Hand.W5_main_arg1 m ρ c)⟩)
    (Cert.KernelIdeal.Hand.run_main (F := Ideal) m ρ)

/-- Both programs, run from memories agreeing on x and T, end with the one function of x and T above as their result,
    and with their arguments as launched. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Hand.run_main (F := Ideal) m ρ)
    · exact (h c _ (Cert.KernelIdeal.Hand.mem_uc Cert.KernelIdeal.main_v6 (by decide))).trans
        (Cert.KernelIdeal.Hand.kernel_value' m ρ c (fun b o => Cert.KernelIdeal.Hand.final1_apply (Cert.KernelIdeal.Hand.E1 m ρ) c b o))
    · exact (h c _ (Cert.KernelIdeal.Hand.mem_uc Cert.KernelIdeal.main_arg0 (by decide))).trans (Cert.KernelIdeal.Hand.W5_main_arg0 m ρ c)
    · exact (h c _ (Cert.KernelIdeal.Hand.mem_uc Cert.KernelIdeal.main_arg1 (by decide))).trans (Cert.KernelIdeal.Hand.W5_main_arg1 m ρ c)
  · exact (θ_run Cert.ReferenceIdeal.defs _ _).mono
      (fun _ h c => ⟨by rw [(h c).1, (hagree c).1, (hagree c).2], (h c).2⟩)
      (Cert.ReferenceIdeal.RefValue.ref_run m' ρ')

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
